-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  main_v3
-- ==== Kernel.lean ====
abbrev S64x1024 : Shape := ⟨2, ![64, 1024]⟩
abbrev S8x1024 : Shape := ⟨2, ![8, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S1024x1 : Shape := ⟨2, ![1024, 1]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1x1024 : 0 < S1x1024.numel
  shapeCasts_S1x1024_S1024 : S1x1024.ShapeCasts S1024
  shapeCasts_S1024_S1x1024 : S1024.ShapeCasts S1x1024
  reduces_S1x1024_S1 : S1x1024.Reduces [1] S1
  shapeCasts_S1_S1x1 : S1.ShapeCasts S1x1
  iota_S1x1024_d1_w32 : S1x1024.Iotas .tc 32 [1]
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  broadcasts_S1x1_S1024x1024 : S1x1.Broadcasts S1024x1024
  reduces_S1024x1024_S1024 : S1024x1024.Reduces [0] S1024
  hrank0 : 0 < grid0.rank
  k0_t1_ok : k0_t1_loop.OK
  k0_off1_inb : ∀ k0_t1 : Fin k0_t1_loop.trips, ∀ a, (k0_off1 k0_t1) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S64x1024.size a
  hwx0_0 : ∀ i : grid0.Coords, EltTy.bits .f32 = 32 ∨ (Rect.block (s := S64x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024 : Shape := ⟨2, ![64, 1024]⟩
abbrev S_ : Shape := ⟨0, ![]⟩
abbrev S1024x1024 : Shape := ⟨2, ![1024, 1024]⟩
abbrev S64x1x1024 : Shape := ⟨3, ![64, 1, 1024]⟩
abbrev S64x1024x1 : Shape := ⟨3, ![64, 1024, 1]⟩
abbrev S64x1024x1024 : Shape := ⟨3, ![64, 1024, 1024]⟩
abbrev S64 : Shape := ⟨1, ![64]⟩
abbrev S64x1x1 : Shape := ⟨3, ![64, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S_, .i1⟩
  | .hbm, ⟨2, _⟩ => ⟨S1024x1024, .i1⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S_, .i1⟩
  | .hbm, ⟨10, _⟩ => ⟨S1024x1024, .i1⟩
  | .hbm, ⟨11, _⟩ => ⟨S1024x1024, .i1⟩
  | .hbm, ⟨12, _⟩ => ⟨S64x1x1024, .f32⟩
  | .hbm, ⟨13, _⟩ => ⟨S64x1024x1, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S_, .f32⟩
  | .hbm, ⟨19, _⟩ => ⟨S1024x1024, .f32⟩
  | .hbm, ⟨20, _⟩ => ⟨S64x1024x1024, .i1⟩
  | .hbm, ⟨21, _⟩ => ⟨S64x1024x1024, .f32⟩
  | .hbm, ⟨22, _⟩ => ⟨S64x1024x1024, .f32⟩
  | .hbm, ⟨23, _⟩ => ⟨S64x1024x1024, .f32⟩
  | .hbm, ⟨24, _⟩ => ⟨S_, .i32⟩
  | .hbm, ⟨25, _⟩ => ⟨S_, .f32⟩
  | .hbm, ⟨26, _⟩ => ⟨S64, .f32⟩
  | .hbm, ⟨27, _⟩ => ⟨S64x1x1, .f32⟩
  | .hbm, ⟨28, _⟩ => ⟨S_, .f32⟩
  | .hbm, ⟨29, _⟩ => ⟨S64x1x1, .f32⟩
  | .hbm, ⟨30, _⟩ => ⟨S64x1x1, .f32⟩
  | .hbm, ⟨31, _⟩ => ⟨S64x1024x1024, .f32⟩
  | .hbm, ⟨32, _⟩ => ⟨S64x1024x1024, .f32⟩
  | .hbm, ⟨33, _⟩ => ⟨S64x1024x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .i32⟩
  | .hbm, ⟨49, _⟩ => ⟨S_, .f32⟩
  | .hbm, ⟨50, _⟩ => ⟨S64, .f32⟩
  | .hbm, ⟨51, _⟩ => ⟨S64x1x1, .f32⟩
  | .hbm, ⟨52, _⟩ => ⟨S_, .f32⟩
  | .hbm, ⟨53, _⟩ => ⟨S64x1x1, .f32⟩
  | .hbm, ⟨54, _⟩ => ⟨S64x1x1, .f32⟩
  | .hbm, ⟨55, _⟩ => ⟨S64x1024x1024, .f32⟩
  | .hbm, ⟨56, _⟩ => ⟨S64x1024x1024, .f32⟩
  | .hbm, ⟨57, _⟩ => ⟨S64x1024x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1x1, .f32⟩
  | .hbm, ⟨76, _⟩ => ⟨S64x1024x1024, .f32⟩
  | .hbm, ⟨77, _⟩ => ⟨S64x1024x1024, .f32⟩
  | .hbm, ⟨78, _⟩ => ⟨S64x1024x1024, .f32⟩
  | .hbm, ⟨79, _⟩ => ⟨S64x1024x1024, .f32⟩
  | .hbm, ⟨80, _⟩ => ⟨S_, .f32⟩
  | .hbm, ⟨81, _⟩ => ⟨S64x1024x1024, .f32⟩
  | .hbm, ⟨82, _⟩ => ⟨S64x1024x1024, .f32⟩
  | .hbm, ⟨83, _⟩ => ⟨S_, .f32⟩
  | .hbm, ⟨84, _⟩ => ⟨S64x1024x1024, .f32⟩
  | .hbm, ⟨85, _⟩ => ⟨S64x1024x1024, .f32⟩
  | .hbm, ⟨86, _⟩ => ⟨S_, .f32⟩
  | .hbm, ⟨87, _⟩ => ⟨S_, .f32⟩
  | .hbm, ⟨88, _⟩ => ⟨S1024x1024, .f32⟩
  | .hbm, ⟨89, _⟩ => ⟨S64x1024x1024, .i1⟩
  | .hbm, ⟨90, _⟩ => ⟨S64x1024x1024, .f32⟩
  | .hbm, ⟨91, _⟩ => ⟨S64x1024x1024, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1x1, .f32⟩
  | .hbm, ⟨96, _⟩ => ⟨S64x1024x1024, .f32⟩
  | .hbm, ⟨97, _⟩ => ⟨S64x1024x1024, .f32⟩
  | .hbm, ⟨98, _⟩ => ⟨S64x1024x1024, .f32⟩
  | .hbm, ⟨99, _⟩ => ⟨S64x1024x1024, .f32⟩
  | .hbm, ⟨100, _⟩ => ⟨S_, .f32⟩
  | .hbm, ⟨101, _⟩ => ⟨S64x1024x1024, .f32⟩
  | .hbm, ⟨102, _⟩ => ⟨S64x1024x1024, .f32⟩
  | .hbm, ⟨103, _⟩ => ⟨S_, .f32⟩
  | .hbm, ⟨104, _⟩ => ⟨S64x1024x1024, .f32⟩
  | .hbm, ⟨105, _⟩ => ⟨S64x1024x1024, .f32⟩
  | .hbm, ⟨106, _⟩ => ⟨S_, .f32⟩
  | .hbm, ⟨107, _⟩ => ⟨S_, .f32⟩
  | .hbm, ⟨108, _⟩ => ⟨S1024x1024, .f32⟩
  | .hbm, ⟨109, _⟩ => ⟨S64x1024x1024, .i1⟩
  | .hbm, ⟨110, _⟩ => ⟨S64x1024x1024, .f32⟩
  | .hbm, ⟨111, _⟩ => ⟨S64x1024x1024, .f32⟩
  | .hbm, ⟨112, _⟩ => ⟨S_, .f32⟩
  | .hbm, ⟨113, _⟩ => ⟨S64x1024, .f32⟩
  | .hbm, ⟨114, _⟩ => ⟨S_, .f32⟩
  | .hbm, ⟨115, _⟩ => ⟨S64x1024, .f32⟩
  | .hbm, ⟨116, _⟩ => ⟨S64x1024, .f32⟩
  | .hbm, ⟨117, _⟩ => ⟨S_, .f32⟩
  | .hbm, ⟨118, _⟩ => ⟨S64x1024, .f32⟩
  | .hbm, ⟨119, _⟩ => ⟨S64x1024, .f32⟩
  | .hbm, ⟨120, _⟩ => ⟨S_, .f32⟩
  | .hbm, ⟨121, _⟩ => ⟨S64x1024, .f32⟩
  | .hbm, ⟨122, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_0 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call2_call0_cst : Ref sig .tc := ⟨.hbm, 25, rfl⟩
abbrev main_call2_call0_v0 : Ref sig .tc := ⟨.hbm, 26, rfl⟩
abbrev main_call2_call0_v1 : Ref sig .tc := ⟨.hbm, 27, rfl⟩
abbrev main_call2_call0_cst_0 : Ref sig .tc := ⟨.hbm, 28, rfl⟩
abbrev main_call2_call0_v2 : Ref sig .tc := ⟨.hbm, 29, rfl⟩
abbrev main_call2_call0_v3 : Ref sig .tc := ⟨.hbm, 30, rfl⟩
abbrev main_call2_call0_v4 : Ref sig .tc := ⟨.hbm, 31, rfl⟩
abbrev main_call2_call0_v5 : Ref sig .tc := ⟨.hbm, 32, rfl⟩
abbrev main_call2_call0_v6 : Ref sig .tc := ⟨.hbm, 33, rfl⟩
abbrev main_call2_call0_v7 : Ref sig .tc := ⟨.hbm, 34, rfl⟩
abbrev main_call2_call0_cst_1 : Ref sig .tc := ⟨.hbm, 35, rfl⟩
abbrev main_call2_call0_v8 : Ref sig .tc := ⟨.hbm, 36, rfl⟩
abbrev main_call2_call0_cst_2 : Ref sig .tc := ⟨.hbm, 37, rfl⟩
abbrev main_call2_call0_v9 : Ref sig .tc := ⟨.hbm, 38, rfl⟩
abbrev main_call2_call0_v10 : Ref sig .tc := ⟨.hbm, 39, rfl⟩
abbrev main_call2_call0_v11 : Ref sig .tc := ⟨.hbm, 40, rfl⟩
abbrev main_call2_call0_cst_3 : Ref sig .tc := ⟨.hbm, 41, rfl⟩
abbrev main_call2_call0_v12 : Ref sig .tc := ⟨.hbm, 42, rfl⟩
abbrev main_call2_call0_cst_4 : Ref sig .tc := ⟨.hbm, 43, rfl⟩
abbrev main_call2_call0_call0_v0 : Ref sig .tc := ⟨.hbm, 44, rfl⟩
abbrev main_call2_call0_call0_v1 : Ref sig .tc := ⟨.hbm, 45, rfl⟩
abbrev main_call2_v0 : Ref sig .tc := ⟨.hbm, 46, rfl⟩
abbrev main_v9 : Ref sig .tc := ⟨.hbm, 47, rfl⟩
abbrev main_c_1 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_cst_0 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_cst_1 : Ref sig .tc := ⟨.hbm, 59, rfl⟩
abbrev main_call3_call0_v8 : Ref sig .tc := ⟨.hbm, 60, rfl⟩
abbrev main_call3_call0_cst_2 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_call0_cst_3 : Ref sig .tc := ⟨.hbm, 65, rfl⟩
abbrev main_call3_call0_v12 : Ref sig .tc := ⟨.hbm, 66, rfl⟩
abbrev main_call3_call0_cst_4 : Ref sig .tc := ⟨.hbm, 67, rfl⟩
abbrev main_call3_call0_call0_v0 : Ref sig .tc := ⟨.hbm, 68, rfl⟩
abbrev main_call3_call0_call0_v1 : Ref sig .tc := ⟨.hbm, 69, rfl⟩
abbrev main_call3_v0 : Ref sig .tc := ⟨.hbm, 70, rfl⟩
abbrev main_v10 : Ref sig .tc := ⟨.hbm, 71, rfl⟩
abbrev main_cst_2 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_cst_3 : Ref sig .tc := ⟨.hbm, 80, rfl⟩
abbrev main_v18 : Ref sig .tc := ⟨.hbm, 81, rfl⟩
abbrev main_v19 : Ref sig .tc := ⟨.hbm, 82, rfl⟩
abbrev main_cst_4 : Ref sig .tc := ⟨.hbm, 83, rfl⟩
abbrev main_v20 : Ref sig .tc := ⟨.hbm, 84, rfl⟩
abbrev main_v21 : Ref sig .tc := ⟨.hbm, 85, rfl⟩
abbrev main_cst_5 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_v22 : Ref sig .tc := ⟨.hbm, 91, rfl⟩
abbrev main_cst_6 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_7 : Ref sig .tc := ⟨.hbm, 100, rfl⟩
abbrev main_v30 : Ref sig .tc := ⟨.hbm, 101, rfl⟩
abbrev main_v31 : Ref sig .tc := ⟨.hbm, 102, rfl⟩
abbrev main_cst_8 : Ref sig .tc := ⟨.hbm, 103, rfl⟩
abbrev main_v32 : Ref sig .tc := ⟨.hbm, 104, rfl⟩
abbrev main_v33 : Ref sig .tc := ⟨.hbm, 105, rfl⟩
abbrev main_cst_9 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_v34 : Ref sig .tc := ⟨.hbm, 111, rfl⟩
abbrev main_cst_10 : Ref sig .tc := ⟨.hbm, 112, rfl⟩
abbrev main_v35 : Ref sig .tc := ⟨.hbm, 113, rfl⟩
abbrev main_cst_11 : Ref sig .tc := ⟨.hbm, 114, rfl⟩
abbrev main_v36 : Ref sig .tc := ⟨.hbm, 115, rfl⟩
abbrev main_v37 : Ref sig .tc := ⟨.hbm, 116, rfl⟩
abbrev main_cst_12 : Ref sig .tc := ⟨.hbm, 117, rfl⟩
abbrev main_v38 : Ref sig .tc := ⟨.hbm, 118, rfl⟩
abbrev main_v39 : Ref sig .tc := ⟨.hbm, 119, rfl⟩
abbrev main_cst_13 : Ref sig .tc := ⟨.hbm, 120, rfl⟩
abbrev main_v40 : Ref sig .tc := ⟨.hbm, 121, rfl⟩
abbrev main_v41 : Ref sig .tc := ⟨.hbm, 122, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S64x1024_S64x1x1024_0_2 : S64x1024.BroadcastsInDim S64x1x1024 (![0, 2] : Fin 2 → Fin S64x1x1024.rank)
  bcast_S64x1024_S64x1024x1_0_1 : S64x1024.BroadcastsInDim S64x1024x1 (![0, 1] : Fin 2 → Fin S64x1024x1.rank)
  bcast_S64x1x1024_S64x1024x1024_0_1_2 : S64x1x1024.BroadcastsInDim S64x1024x1024 (![0, 1, 2] : Fin 3 → Fin S64x1024x1024.rank)
  bcast_S64x1024x1_S64x1024x1024_0_1_2 : S64x1024x1.BroadcastsInDim S64x1024x1024 (![0, 1, 2] : Fin 3 → Fin S64x1024x1024.rank)
  bcast_S1024x1024_S64x1024x1024_1_2 : S1024x1024.BroadcastsInDim S64x1024x1024 (![1, 2] : Fin 2 → Fin S64x1024x1024.rank)
  reducesTo_S64x1024x1024_S64_d1_2 : S64x1024x1024.ReducesTo [1, 2] S64
  h_S_ : 0 < S_.numel
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x1024x1024_0_1_2 : S64x1x1.BroadcastsInDim S64x1024x1024 (![0, 1, 2] : Fin 3 → Fin S64x1024x1024.rank)
  bcast_S_S64 : S_.BroadcastsInDim S64 (![] : Fin 0 → Fin S64.rank)
  bcast_S_S64x1024x1024 : S_.BroadcastsInDim S64x1024x1024 (![] : Fin 0 → Fin S64x1024x1024.rank)
  reducesTo_S64x1024x1024_S64x1024_d2 : S64x1024x1024.ReducesTo [2] S64x1024
  reducesTo_S64x1024x1024_S64x1024_d1 : S64x1024x1024.ReducesTo [1] S64x1024
  bcast_S_S64x1024 : S_.BroadcastsInDim S64x1024 (![] : Fin 0 → Fin S64x1024.rank)

variable [Facts₀]

class Facts : Prop extends Facts₀ where

variable [Facts]
-- ==== Proof.RefTerm.lean ====
/-
  The reference's result as a pure term of its argument array.

  Per batch row b of X : f32[64,1024] the reference forms the strictly upper triangular matrix of pairwise
  differences a[b,i,j] = X[b,j] - X[b,i] for i < j (zero elsewhere), its negation, the unbiased standard
  deviation over all 1024*1024 entries of each (two passes: the mean, then the squared deviations summed and
  divided by 2^20 - ddof), the logistic function 1/(1 + exp(-z)) of each matrix scaled by 6.8 over its
  standard deviation, masked again to the strict upper triangle, the row sums of the first plus the column
  sums of the second, plus one, over 1024.  Every definition below is the composition of the same operations,
  in the same order and with the same side conditions, that the printed program applies.
-/
import proofs.«141201_j10222022164545_1_alg».proof.ReferenceIdeal

noncomputable section

namespace Cert.ReferenceIdeal.RefTerm

open Cert.ReferenceIdeal Idealize.ShloMosaic
open Facts₀ Facts

variable {F : FTy → Type} [FloatOps F] [Cert.ReferenceIdeal.Facts]

/-- The strict upper triangle of the 1024 x 1024 square as a mask: at (i, j) it is 0 where i + 0 ≥ j and 1
    elsewhere, i.e. 1 exactly where i < j. -/
def upperMask : IVec S1024x1024 1 :=
  select
    (cmpi .sge
      (addi (iotaInDim S1024x1024 32 0)
        (broadcastInDim S1024x1024 ![] bcast_S_S1024x1024 (constantI S_ 32 0#32)))
      (iotaInDim S1024x1024 32 1))
    (broadcastInDim S1024x1024 ![] bcast_S_S1024x1024 (constantI S_ 1 0#1))
    (broadcastInDim S1024x1024 ![] bcast_S_S1024x1024 (constantI S_ 1 1#1))

/-- `v` where the mask (the same for every batch row) holds, the scalar `z` elsewhere. -/
def maskedElse (msk : IVec S1024x1024 1) (v : FVec F S64x1024x1024 .f32) (z : FVec F S_ .f32) :
    FVec F S64x1024x1024 .f32 :=
  select (broadcastInDim S64x1024x1024 ![1, 2] bcast_S1024x1024_S64x1024x1024_1_2 msk) v
    (broadcastInDim S64x1024x1024 ![1, 2] bcast_S1024x1024_S64x1024x1024_1_2
      (broadcastInDim S1024x1024 ![] bcast_S_S1024x1024 (id z)))

/-- The pairwise differences: at (b, i, j) the value X[b, j] - X[b, i]. -/
def pairDiff (X : FVec F S64x1024 .f32) : FVec F S64x1024x1024 .f32 :=
  subf
    (broadcastInDim S64x1024x1024 ![0, 1, 2] bcast_S64x1x1024_S64x1024x1024_0_1_2
      (broadcastInDim S64x1x1024 ![0, 2] bcast_S64x1024_S64x1x1024_0_2 X))
    (broadcastInDim S64x1024x1024 ![0, 1, 2] bcast_S64x1024x1_S64x1024x1024_0_1_2
      (broadcastInDim S64x1024x1 ![0, 1] bcast_S64x1024_S64x1024x1_0_1 X))

/-- The scalar zero. -/
def zeroS : FVec F S_ .f32 := constant S_ .f32 0x00000000#32

/-- The scalar one. -/
def oneS : FVec F S_ .f32 := constant S_ .f32 0x3F800000#32

/-- The scalar 2^20, the number of entries of one batch row's matrix. -/
def countS : FVec F S_ .f32 := constant S_ .f32 0x49800000#32

/-- Per batch row, the sum of all 1024 * 1024 entries. -/
def sumAll (a : FVec F S64x1024x1024 .f32) : FVec F S64 .f32 :=
  Host.reduceAdd a (zeroS (F := F)) reducesTo_S64x1024x1024_S64_d1_2 h_S_

/-- Per batch row, the mean of all entries (the sum over 2^20), spread back over the matrix. -/
def meanOf (a : FVec F S64x1024x1024 .f32) : FVec F S64x1024x1024 .f32 :=
  broadcastInDim S64x1024x1024 ![0, 1, 2] bcast_S64x1x1_S64x1024x1024_0_1_2
    (Host.divf (broadcastInDim S64x1x1 ![0] bcast_S64_S64x1x1_0 (sumAll a))
      (broadcastInDim S64x1x1 ![] bcast_S_S64x1x1 (countS (F := F))))

/-- The squared deviations from the mean. -/
def devSq (a : FVec F S64x1024x1024 .f32) : FVec F S64x1024x1024 .f32 :=
  mulf (subf a (meanOf a)) (subf a (meanOf a))

/-- The normaliser 2^20 - ddof, a scalar. -/
def normS (ddof : IVec S_ 32) : FVec F S_ .f32 :=
  subf (countS (F := F)) (sitofp .f32 ddof)

/-- Per batch row, the variance with `ddof` delta degrees of freedom: the squared deviations summed and
    divided by the normaliser where the normaliser is positive, the quiet NaN otherwise. -/
def varOf (a : FVec F S64x1024x1024 .f32) (ddof : IVec S_ 32) : FVec F S64 .f32 :=
  select
    (broadcastInDim S64 ![] bcast_S_S64 (cmpf .ogt (normS (F := F) ddof) (zeroS (F := F))))
    (Host.divf (sumAll (devSq a)) (broadcastInDim S64 ![] bcast_S_S64 (normS (F := F) ddof)))
    (broadcastInDim S64 ![] bcast_S_S64 (id (constant (F := F) S_ .f32 0x7FC00000#32)))

/-- Per batch row, the standard deviation: the square root of the variance. -/
def stdOf (a : FVec F S64x1024x1024 .f32) (ddof : IVec S_ 32) : FVec F S64 .f32 :=
  Host.sqrt (varOf a ddof)

/-- 6.8 over the per-row scalar `s`, spread over the row's matrix. -/
def scaleOf (s : FVec F S64 .f32) : FVec F S64x1024x1024 .f32 :=
  broadcastInDim S64x1024x1024 ![0, 1, 2] bcast_S64x1x1_S64x1024x1024_0_1_2
    (broadcastInDim S64x1x1 ![0] bcast_S64_S64x1x1_0
      (Host.divf (broadcastInDim S64 ![] bcast_S_S64 (constant (F := F) S_ .f32 0x40D9999A#32)) s))

/-- The logistic function 1 / (1 + exp (-z)), entry by entry. -/
def sigmoidOf (z : FVec F S64x1024x1024 .f32) : FVec F S64x1024x1024 .f32 :=
  Host.divf (broadcastInDim S64x1024x1024 ![] bcast_S_S64x1024x1024 (oneS (F := F)))
    (addf (broadcastInDim S64x1024x1024 ![] bcast_S_S64x1024x1024 (oneS (F := F)))
      (Host.exp (Host.negf z)))

/-- The masked pairwise differences: X[b, j] - X[b, i] where i < j, zero elsewhere. -/
def upperDiff (X : FVec F S64x1024 .f32) : FVec F S64x1024x1024 .f32 :=
  maskedElse upperMask (pairDiff X) (zeroS (F := F))

/-- The one as a 32-bit integer scalar: the delta degrees of freedom both standard deviations take. -/
def ddofOne : IVec S_ 32 := constantI S_ 32 1#32

/-- The logistic function of `a` scaled by 6.8 over its own standard deviation, kept on the strict upper
    triangle and zero elsewhere. -/
def softStep (a : FVec F S64x1024x1024 .f32) : FVec F S64x1024x1024 .f32 :=
  maskedElse upperMask (sigmoidOf (mulf a (scaleOf (stdOf a ddofOne)))) (zeroS (F := F))

/-- The reference's result: with a the masked differences, the sum over j of softStep a plus the sum over i
    of softStep (-a), plus one, over 1024. -/
def refOut (X : FVec F S64x1024 .f32) : FVec F S64x1024 .f32 :=
  Host.divf
    (addf
      (addf
        (Host.reduceAdd (softStep (upperDiff X)) (zeroS (F := F)) reducesTo_S64x1024x1024_S64x1024_d2 h_S_)
        (Host.reduceAdd (softStep (Host.negf (upperDiff X))) (zeroS (F := F)) reducesTo_S64x1024x1024_S64x1024_d1 h_S_))
      (broadcastInDim S64x1024 ![] bcast_S_S64x1024 (oneS (F := F))))
    (broadcastInDim S64x1024 ![] bcast_S_S64x1024 (constant (F := F) S_ .f32 0x44800000#32))

end Cert.ReferenceIdeal.RefTerm

end
-- ==== Proof.RefOps.lean ====
/-
  The reference program's operations as one list, copied from the printed program: every statement of the
  main function in order, each call of a module-local function replaced by that function's printed body over
  the call's operands and the call's record of buffers.  A table, no proof: that the program is this straight
  line is proved where the list is used.
-/
import proofs.«141201_j10222022164545_1_alg».proof.ReferenceIdeal
import proofs.«141201_j10222022164545_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The 122 operations of the whole run, in order: the mask (the constant true spread over the square, then the
    comparison i + 0 ≥ j selecting false over it), the two spreads of the argument and their difference, the
    masked differences and their negation, the standard deviation of each (sum, mean, squared deviations, sum,
    normaliser, quotient, the guard on the normaliser's sign, square root), and for each the scale 6.8 over
    the deviation, the product, the logistic function as 1 / (1 + exp (-z)), the mask again; then the sum over
    the last axis of the first, over the middle axis of the second, their sum, plus one, over 1024. -/
abbrev ops : List (HloOp τ sig (Elt F)) :=
  [
    nullary main_c (constantI S_ 1 1#1),
    unary main_c main_v0 (broadcastInDim S1024x1024 ![] bcast_S_S1024x1024 : (⟨S_, .i1⟩ : BufTy).Contents (Elt F) → (⟨S1024x1024, .i1⟩ : BufTy).Contents (Elt F)),
    TRef.nullary main_call0.v0 (iotaInDim S1024x1024 32 0),
    TRef.nullary main_call0.c (constantI S_ 32 0#32),
    TRef.unary main_call0.c main_call0.v1 (broadcastInDim S1024x1024 ![] bcast_S_S1024x1024),
    TRef.binary main_call0.v0 main_call0.v1 main_call0.v2 addi,
    TRef.nullary main_call0.v3 (iotaInDim S1024x1024 32 1),
    TRef.binary main_call0.v2 main_call0.v3 main_call0.v4 (cmpi .sge),
    TRef.nullary main_call0.c_0 (constantI S_ 1 0#1),
    TRef.unary main_call0.c_0 main_call0.v5 (broadcastInDim S1024x1024 ![] bcast_S_S1024x1024),
    TRef.ternary main_call0.v4 main_call0.v5 (.of main_v0 : StableHlo.TRef sig ⟨S1024x1024, .i1⟩) main_call0.v6 select,
    unary main_arg0 main_v2 (broadcastInDim S64x1x1024 ![0, 2] bcast_S64x1024_S64x1x1024_0_2 : (⟨S64x1024, .f32⟩ : BufTy).Contents (Elt F) → (⟨S64x1x1024, .f32⟩ : BufTy).Contents (Elt F)),
    unary main_arg0 main_v3 (broadcastInDim S64x1024x1 ![0, 1] bcast_S64x1024_S64x1024x1_0_1 : (⟨S64x1024, .f32⟩ : BufTy).Contents (Elt F) → (⟨S64x1024x1, .f32⟩ : BufTy).Contents (Elt F)),
    unary main_v2 main_v4 (broadcastInDim S64x1024x1024 ![0, 1, 2] bcast_S64x1x1024_S64x1024x1024_0_1_2 : (⟨S64x1x1024, .f32⟩ : BufTy).Contents (Elt F) → (⟨S64x1024x1024, .f32⟩ : BufTy).Contents (Elt F)),
    unary main_v3 main_v5 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    binary main_v4 main_v5 main_v6 (subf : (⟨S64x1024x1024, .f32⟩ : BufTy).Contents (Elt F) → (⟨S64x1024x1024, .f32⟩ : BufTy).Contents (Elt F) → (⟨S64x1024x1024, .f32⟩ : BufTy).Contents (Elt F)),
    nullary main_cst (constant S_ .f32 0x00000000#32),
    TRef.unary (.of main_cst : StableHlo.TRef sig ⟨S_, .f32⟩) main_call1.v0 id,
    TRef.unary main_call1.v0 main_call1.v1 (broadcastInDim S1024x1024 ![] bcast_S_S1024x1024),
    TRef.unary (.of main_v1 : StableHlo.TRef sig ⟨S1024x1024, .i1⟩) main_call1.v2 (broadcastInDim S64x1024x1024 ![1, 2] bcast_S1024x1024_S64x1024x1024_1_2),
    TRef.unary main_call1.v1 main_call1.v3 (broadcastInDim S64x1024x1024 ![1, 2] bcast_S1024x1024_S64x1024x1024_1_2),
    TRef.ternary main_call1.v2 (.of main_v6 : StableHlo.TRef sig ⟨S64x1024x1024, .f32⟩) main_call1.v3 main_call1.v4 select,
    unary main_v7 main_v8 (Host.negf : (⟨S64x1024x1024, .f32⟩ : BufTy).Contents (Elt F) → (⟨S64x1024x1024, .f32⟩ : BufTy).Contents (Elt F)),
    nullary main_c_0 (constantI S_ 32 1#32),
    TRef.nullary main_call2.call0.cst (constant S_ .f32 0x00000000#32),
    TRef.binary (.of main_v7 : StableHlo.TRef sig ⟨S64x1024x1024, .f32⟩) main_call2.call0.cst main_call2.call0.v0 (fun x v => Host.reduceAdd x v reducesTo_S64x1024x1024_S64_d1_2 h_S_),
    TRef.unary main_call2.call0.v0 main_call2.call0.v1 (broadcastInDim S64x1x1 ![0] bcast_S64_S64x1x1_0),
    TRef.nullary main_call2.call0.cst_0 (constant S_ .f32 0x49800000#32),
    TRef.unary main_call2.call0.cst_0 main_call2.call0.v2 (broadcastInDim S64x1x1 ![] bcast_S_S64x1x1),
    TRef.binary main_call2.call0.v1 main_call2.call0.v2 main_call2.call0.v3 Host.divf,
    TRef.unary main_call2.call0.v3 main_call2.call0.v4 (broadcastInDim S64x1024x1024 ![0, 1, 2] bcast_S64x1x1_S64x1024x1024_0_1_2),
    TRef.binary (.of main_v7 : StableHlo.TRef sig ⟨S64x1024x1024, .f32⟩) main_call2.call0.v4 main_call2.call0.v5 subf,
    TRef.binary main_call2.call0.v5 main_call2.call0.v5 main_call2.call0.v6 mulf,
    TRef.unary (.of main_c_0 : StableHlo.TRef sig ⟨S_, .i32⟩) main_call2.call0.v7 (sitofp .f32),
    TRef.nullary main_call2.call0.cst_1 (constant S_ .f32 0x49800000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S64x1024x1024_S64_d1_2 h_S_),
    TRef.unary main_call2.call0.v8 main_call2.call0.v10 (broadcastInDim S64 ![] bcast_S_S64),
    TRef.binary main_call2.call0.v9 main_call2.call0.v10 main_call2.call0.v11 Host.divf,
    TRef.nullary main_call2.call0.cst_3 (constant S_ .f32 0x00000000#32),
    TRef.binary main_call2.call0.v8 main_call2.call0.cst_3 main_call2.call0.v12 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S64 ![] bcast_S_S64),
    TRef.ternary main_call2.call0.v12 main_call2.call0.v11 main_call2.call0.call0.v1 main_call2.call0.call0.v2 (fun p a b => select (broadcastInDim S64 ![] bcast_S_S64 p) a b),
    TRef.unary main_call2.call0.call0.v2 main_call2.v1 Host.sqrt,
    nullary main_c_1 (constantI S_ 32 1#32),
    TRef.nullary main_call3.call0.cst (constant S_ .f32 0x00000000#32),
    TRef.binary (.of main_v8 : StableHlo.TRef sig ⟨S64x1024x1024, .f32⟩) main_call3.call0.cst main_call3.call0.v0 (fun x v => Host.reduceAdd x v reducesTo_S64x1024x1024_S64_d1_2 h_S_),
    TRef.unary main_call3.call0.v0 main_call3.call0.v1 (broadcastInDim S64x1x1 ![0] bcast_S64_S64x1x1_0),
    TRef.nullary main_call3.call0.cst_0 (constant S_ .f32 0x49800000#32),
    TRef.unary main_call3.call0.cst_0 main_call3.call0.v2 (broadcastInDim S64x1x1 ![] bcast_S_S64x1x1),
    TRef.binary main_call3.call0.v1 main_call3.call0.v2 main_call3.call0.v3 Host.divf,
    TRef.unary main_call3.call0.v3 main_call3.call0.v4 (broadcastInDim S64x1024x1024 ![0, 1, 2] bcast_S64x1x1_S64x1024x1024_0_1_2),
    TRef.binary (.of main_v8 : StableHlo.TRef sig ⟨S64x1024x1024, .f32⟩) main_call3.call0.v4 main_call3.call0.v5 subf,
    TRef.binary main_call3.call0.v5 main_call3.call0.v5 main_call3.call0.v6 mulf,
    TRef.unary (.of main_c_1 : StableHlo.TRef sig ⟨S_, .i32⟩) main_call3.call0.v7 (sitofp .f32),
    TRef.nullary main_call3.call0.cst_1 (constant S_ .f32 0x49800000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S64x1024x1024_S64_d1_2 h_S_),
    TRef.unary main_call3.call0.v8 main_call3.call0.v10 (broadcastInDim S64 ![] bcast_S_S64),
    TRef.binary main_call3.call0.v9 main_call3.call0.v10 main_call3.call0.v11 Host.divf,
    TRef.nullary main_call3.call0.cst_3 (constant S_ .f32 0x00000000#32),
    TRef.binary main_call3.call0.v8 main_call3.call0.cst_3 main_call3.call0.v12 (cmpf .ogt),
    TRef.nullary main_call3.call0.cst_4 (constant S_ .f32 0x7FC00000#32),
    TRef.unary main_call3.call0.cst_4 main_call3.call0.call0.v0 id,
    TRef.unary main_call3.call0.call0.v0 main_call3.call0.call0.v1 (broadcastInDim S64 ![] bcast_S_S64),
    TRef.ternary main_call3.call0.v12 main_call3.call0.v11 main_call3.call0.call0.v1 main_call3.call0.call0.v2 (fun p a b => select (broadcastInDim S64 ![] bcast_S_S64 p) a b),
    TRef.unary main_call3.call0.call0.v2 main_call3.v1 Host.sqrt,
    nullary main_cst_2 (constant S_ .f32 0x40D9999A#32),
    unary main_cst_2 main_v11 (broadcastInDim S64 ![] bcast_S_S64 : (⟨S_, .f32⟩ : BufTy).Contents (Elt F) → (⟨S64, .f32⟩ : BufTy).Contents (Elt F)),
    binary main_v11 main_v9 main_v12 (Host.divf : (⟨S64, .f32⟩ : BufTy).Contents (Elt F) → (⟨S64, .f32⟩ : BufTy).Contents (Elt F) → (⟨S64, .f32⟩ : BufTy).Contents (Elt F)),
    unary main_v12 main_v13 (broadcastInDim S64x1x1 ![0] bcast_S64_S64x1x1_0 : (⟨S64, .f32⟩ : BufTy).Contents (Elt F) → (⟨S64x1x1, .f32⟩ : BufTy).Contents (Elt F)),
    unary main_v13 main_v14 (broadcastInDim S64x1024x1024 ![0, 1, 2] bcast_S64x1x1_S64x1024x1024_0_1_2 : (⟨S64x1x1, .f32⟩ : BufTy).Contents (Elt F) → (⟨S64x1024x1024, .f32⟩ : BufTy).Contents (Elt F)),
    binary main_v7 main_v14 main_v15 (mulf : (⟨S64x1024x1024, .f32⟩ : BufTy).Contents (Elt F) → (⟨S64x1024x1024, .f32⟩ : BufTy).Contents (Elt F) → (⟨S64x1024x1024, .f32⟩ : BufTy).Contents (Elt F)),
    unary main_v15 main_v16 (Host.negf : (⟨S64x1024x1024, .f32⟩ : BufTy).Contents (Elt F) → (⟨S64x1024x1024, .f32⟩ : BufTy).Contents (Elt F)),
    unary main_v16 main_v17 (Host.exp : (⟨S64x1024x1024, .f32⟩ : BufTy).Contents (Elt F) → (⟨S64x1024x1024, .f32⟩ : BufTy).Contents (Elt F)),
    nullary main_cst_3 (constant S_ .f32 0x3F800000#32),
    unary main_cst_3 main_v18 (broadcastInDim S64x1024x1024 ![] bcast_S_S64x1024x1024 : (⟨S_, .f32⟩ : BufTy).Contents (Elt F) → (⟨S64x1024x1024, .f32⟩ : BufTy).Contents (Elt F)),
    binary main_v18 main_v17 main_v19 (addf : (⟨S64x1024x1024, .f32⟩ : BufTy).Contents (Elt F) → (⟨S64x1024x1024, .f32⟩ : BufTy).Contents (Elt F) → (⟨S64x1024x1024, .f32⟩ : BufTy).Contents (Elt F)),
    nullary main_cst_4 (constant S_ .f32 0x3F800000#32),
    unary main_cst_4 main_v20 (broadcastInDim S64x1024x1024 ![] bcast_S_S64x1024x1024 : (⟨S_, .f32⟩ : BufTy).Contents (Elt F) → (⟨S64x1024x1024, .f32⟩ : BufTy).Contents (Elt F)),
    binary main_v20 main_v19 main_v21 (Host.divf : (⟨S64x1024x1024, .f32⟩ : BufTy).Contents (Elt F) → (⟨S64x1024x1024, .f32⟩ : BufTy).Contents (Elt F) → (⟨S64x1024x1024, .f32⟩ : BufTy).Contents (Elt F)),
    nullary main_cst_5 (constant S_ .f32 0x00000000#32),
    TRef.unary (.of main_cst_5 : StableHlo.TRef sig ⟨S_, .f32⟩) main_call4.v0 id,
    TRef.unary main_call4.v0 main_call4.v1 (broadcastInDim S1024x1024 ![] bcast_S_S1024x1024),
    TRef.unary (.of main_v1 : StableHlo.TRef sig ⟨S1024x1024, .i1⟩) main_call4.v2 (broadcastInDim S64x1024x1024 ![1, 2] bcast_S1024x1024_S64x1024x1024_1_2),
    TRef.unary main_call4.v1 main_call4.v3 (broadcastInDim S64x1024x1024 ![1, 2] bcast_S1024x1024_S64x1024x1024_1_2),
    TRef.ternary main_call4.v2 (.of main_v21 : StableHlo.TRef sig ⟨S64x1024x1024, .f32⟩) main_call4.v3 main_call4.v4 select,
    nullary main_cst_6 (constant S_ .f32 0x40D9999A#32),
    unary main_cst_6 main_v23 (broadcastInDim S64 ![] bcast_S_S64 : (⟨S_, .f32⟩ : BufTy).Contents (Elt F) → (⟨S64, .f32⟩ : BufTy).Contents (Elt F)),
    binary main_v23 main_v10 main_v24 (Host.divf : (⟨S64, .f32⟩ : BufTy).Contents (Elt F) → (⟨S64, .f32⟩ : BufTy).Contents (Elt F) → (⟨S64, .f32⟩ : BufTy).Contents (Elt F)),
    unary main_v24 main_v25 (broadcastInDim S64x1x1 ![0] bcast_S64_S64x1x1_0 : (⟨S64, .f32⟩ : BufTy).Contents (Elt F) → (⟨S64x1x1, .f32⟩ : BufTy).Contents (Elt F)),
    unary main_v25 main_v26 (broadcastInDim S64x1024x1024 ![0, 1, 2] bcast_S64x1x1_S64x1024x1024_0_1_2 : (⟨S64x1x1, .f32⟩ : BufTy).Contents (Elt F) → (⟨S64x1024x1024, .f32⟩ : BufTy).Contents (Elt F)),
    binary main_v8 main_v26 main_v27 (mulf : (⟨S64x1024x1024, .f32⟩ : BufTy).Contents (Elt F) → (⟨S64x1024x1024, .f32⟩ : BufTy).Contents (Elt F) → (⟨S64x1024x1024, .f32⟩ : BufTy).Contents (Elt F)),
    unary main_v27 main_v28 (Host.negf : (⟨S64x1024x1024, .f32⟩ : BufTy).Contents (Elt F) → (⟨S64x1024x1024, .f32⟩ : BufTy).Contents (Elt F)),
    unary main_v28 main_v29 (Host.exp : (⟨S64x1024x1024, .f32⟩ : BufTy).Contents (Elt F) → (⟨S64x1024x1024, .f32⟩ : BufTy).Contents (Elt F)),
    nullary main_cst_7 (constant S_ .f32 0x3F800000#32),
    unary main_cst_7 main_v30 (broadcastInDim S64x1024x1024 ![] bcast_S_S64x1024x1024 : (⟨S_, .f32⟩ : BufTy).Contents (Elt F) → (⟨S64x1024x1024, .f32⟩ : BufTy).Contents (Elt F)),
    binary main_v30 main_v29 main_v31 (addf : (⟨S64x1024x1024, .f32⟩ : BufTy).Contents (Elt F) → (⟨S64x1024x1024, .f32⟩ : BufTy).Contents (Elt F) → (⟨S64x1024x1024, .f32⟩ : BufTy).Contents (Elt F)),
    nullary main_cst_8 (constant S_ .f32 0x3F800000#32),
    unary main_cst_8 main_v32 (broadcastInDim S64x1024x1024 ![] bcast_S_S64x1024x1024 : (⟨S_, .f32⟩ : BufTy).Contents (Elt F) → (⟨S64x1024x1024, .f32⟩ : BufTy).Contents (Elt F)),
    binary main_v32 main_v31 main_v33 (Host.divf : (⟨S64x1024x1024, .f32⟩ : BufTy).Contents (Elt F) → (⟨S64x1024x1024, .f32⟩ : BufTy).Contents (Elt F) → (⟨S64x1024x1024, .f32⟩ : BufTy).Contents (Elt F)),
    nullary main_cst_9 (constant S_ .f32 0x00000000#32),
    TRef.unary (.of main_cst_9 : StableHlo.TRef sig ⟨S_, .f32⟩) main_call5.v0 id,
    TRef.unary main_call5.v0 main_call5.v1 (broadcastInDim S1024x1024 ![] bcast_S_S1024x1024),
    TRef.unary (.of main_v1 : StableHlo.TRef sig ⟨S1024x1024, .i1⟩) main_call5.v2 (broadcastInDim S64x1024x1024 ![1, 2] bcast_S1024x1024_S64x1024x1024_1_2),
    TRef.unary main_call5.v1 main_call5.v3 (broadcastInDim S64x1024x1024 ![1, 2] bcast_S1024x1024_S64x1024x1024_1_2),
    TRef.ternary main_call5.v2 (.of main_v33 : StableHlo.TRef sig ⟨S64x1024x1024, .f32⟩) main_call5.v3 main_call5.v4 select,
    nullary main_cst_10 (constant S_ .f32 0x00000000#32),
    binary main_v22 main_cst_10 main_v35 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    nullary main_cst_11 (constant S_ .f32 0x00000000#32),
    binary main_v34 main_cst_11 main_v36 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    binary main_v35 main_v36 main_v37 (addf : (⟨S64x1024, .f32⟩ : BufTy).Contents (Elt F) → (⟨S64x1024, .f32⟩ : BufTy).Contents (Elt F) → (⟨S64x1024, .f32⟩ : BufTy).Contents (Elt F)),
    nullary main_cst_12 (constant S_ .f32 0x3F800000#32),
    unary main_cst_12 main_v38 (broadcastInDim S64x1024 ![] bcast_S_S64x1024 : (⟨S_, .f32⟩ : BufTy).Contents (Elt F) → (⟨S64x1024, .f32⟩ : BufTy).Contents (Elt F)),
    binary main_v37 main_v38 main_v39 (addf : (⟨S64x1024, .f32⟩ : BufTy).Contents (Elt F) → (⟨S64x1024, .f32⟩ : BufTy).Contents (Elt F) → (⟨S64x1024, .f32⟩ : BufTy).Contents (Elt F)),
    nullary main_cst_13 (constant S_ .f32 0x44800000#32),
    unary main_cst_13 main_v40 (broadcastInDim S64x1024 ![] bcast_S_S64x1024 : (⟨S_, .f32⟩ : BufTy).Contents (Elt F) → (⟨S64x1024, .f32⟩ : BufTy).Contents (Elt F)),
    binary main_v39 main_v40 main_v41 (Host.divf : (⟨S64x1024, .f32⟩ : BufTy).Contents (Elt F) → (⟨S64x1024, .f32⟩ : BufTy).Contents (Elt F) → (⟨S64x1024, .f32⟩ : BufTy).Contents (Elt F)) ]

end Cert.ReferenceIdeal.RefRun

end
-- ==== Proof.RefRun.lean ====
/-
  The reference program's run, read back as a pure term of its argument.

  The program is a straight line of host operations: the strict upper triangular mask, the pairwise
  differences and their masked form a, its negation, the two unbiased standard deviations, the two scaled
  logistic functions masked again, the two axis sums, their sum plus one over 1024.  Every call of a
  module-local function is its body over the buffers of that call, so the whole run is one list of
  operations; every weakly fair execution terminates with each buffer at the fold of the operations' results
  over the launch contents, and that fold at the result buffer is the term `RefTerm.refOut` of the argument
  array, the argument itself unchanged.
-/
import proofs.«141201_j10222022164545_1_alg».proof.Proof.RefTerm
import proofs.«141201_j10222022164545_1_alg».proof.Proof.RefOps
import proofs.«141201_j10222022164545_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

-- one hundred and twenty-two binds re-associated, one recursion per statement
set_option maxRecDepth 8192 in
set_option maxHeartbeats 1600000 in
/-- The program is that straight line: each function's body unfolded at its call and each call's record at
    its fields, both sides are one chain of steps once sequencing is re-associated. -/
theorem main_eq (c : Dev nD) : main (F := F) c = seq ops := by
  simp only [main, fn_triu.body, fn_where.body, fn_where_0.body, fn_var.body, fn_std.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxRecDepth 8192 in
/-- Every operation touches buffers of the signature only: operation by operation, by its arity. -/
theorem ops_sub : (ops : List (HloOp τ sig (Elt F))).Forall fun op => op.bufs ⊆ tcRefs τ sig := by
  simp only [ops, List.forall_cons, List.Forall, nullary_bufs_sub, unary_bufs_sub, binary_bufs_sub, ternary_bufs_sub, and_self]

-- the sums are kept folded: the equation compares them argument by argument and never looks inside
attribute [local irreducible] Host.reduceAdd in
set_option maxRecDepth 16384 in
set_option maxHeartbeats 4000000 in
/-- The fold at the result buffer is the term: each operation's result at the buffer it writes is its function
    of what its operands held, at any other buffer what was there; composed from the last operation back to
    the argument this is `RefTerm.refOut`, whose definitions are the same compositions, by unfolding. -/
theorem out_eq (V : Valuation τ sig (Elt F)) :
    after ops V (main_v41 : DevRef τ sig) = RefTerm.refOut (V (main_arg0 : DevRef τ sig)) := by
  after_results_simp
  rfl

set_option maxRecDepth 16384 in
set_option maxHeartbeats 4000000 in
/-- No operation writes the argument: it holds at the end what it held at the start. -/
theorem arg0_eq (V : Valuation τ sig (Elt F)) :
    after ops V (main_arg0 : DevRef τ sig) = V (main_arg0 : DevRef τ sig) := by
  after_results_simp

set_option maxRecDepth 16384 in
set_option maxHeartbeats 4000000 in
/-- On every device, for any float values, from any memory with zero counters: every weakly fair execution of
    the program terminates with the result buffer at `RefTerm.refOut` of the argument's launch contents and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = RefTerm.refOut (m ((c.tc : Thread nD τ).loc main_arg0))
      ∧ r.2.mem ((c.tc : Thread nD τ).loc main_arg0) = m ((c.tc : Thread nD τ).loc main_arg0) :=
  (θ_run defs _ _).mono (fun _ h c => ⟨(h c main_v41).trans (out_eq _), (h c main_arg0).trans (arg0_eq _)⟩)
    (run_seq scopedRefs_eq scopedSems_eq defs main (fun _ => ops) main_eq (fun _ => ops_sub) m ρ)

end Cert.ReferenceIdeal.RefRun

end
-- ==== Proof.KernelRows.lean ====
import proofs.«141201_j10222022164545_1_alg».proof.Proof.Gen.KernelIdeal.Frame
import Idealize.ShloMosaic.Lib.Pipeline.Value
import Idealize.ShloMosaic.Lib.ValueIdx

/-!
The kernel body walks the eight rows of its block in a counted loop; trip `k` loads row `k` of the input block,
computes that row's result vector from it alone, and stores it as row `k` of the output block. So the output block is
ONE function of the input block: entry `(r, j)` is entry `j` of the result vector of row `r`.
-/

noncomputable section

namespace Cert.KernelIdeal.Rows

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- The result row computed from one input row (the loop body's arithmetic, as one pure term). -/
def rowOut (xr : Vec F S1x1024 .f32) : FVec F S1x1024 .f32 :=
  k0_pay1 (k0_pay2 xr) (Scalar.ofBits .f32 0x44800000#32)

/-- Row `r` of an eight-row block, as a one-row vector. -/
def rowOf (x0 : Vec F S8x1024 .f32) (r : Fin 8) : Vec F S1x1024 .f32 := fun z => x0 (ix2 r (z 1))

/-- The output block as a function of the input block: entry `(r, j)` is entry `j` of row `r`'s result. -/
def blockOut (x0 : Vec F S8x1024 .f32) : S8x1024.Idx → F .f32 := fun y => rowOut (rowOf x0 (y 0)) (ix2 0 (y 1))

/-- The loop makes eight trips. -/
theorem trips_eq : k0_t1_loop.trips = 8 := by decide

/-- Trip `k` works at row `k`, column 0. -/
theorem off_eq : ∀ k : Fin k0_t1_loop.trips, k0_off1 k = ![k.val, 0] := by decide +kernel

/-- A load of one row of the block reads that row. -/
theorem ld_row (x0 : Vec F S8x1024 .f32) (off : Fin 2 → Nat) (k : Nat) (hk : k < 8) (hoff : off = ![k, 0])
    (inb : ∀ a, off a + S1x1024.size a ≤ S8x1024.size a) :
    View.ld x0 (Rect.unit (s := S8x1024) off S1x1024.size inb) = rowOf x0 ⟨k, hk⟩ := by
  subst hoff
  funext z
  show x0 _ = x0 _
  congr 1
  funext a
  apply Fin.ext
  match a with
  | ⟨0, _⟩ => show k + 1 * (z 0).val = k; have h1 : (z 0).val < 1 := (z 0).isLt; omega
  | ⟨1, _⟩ => show 0 + 1 * (z 1).val = (z 1).val; omega

/-- The whole run's stores are the stores of the eight trips. -/
theorem run_pieces (c : Dev nD) (i : grid0.Coords) (arg1 : Memref sig .tc .vmem S8x1024 .f32) (harg1 : arg1.IsWhole)
    (arg2 : Memref sig .tc .vmem S8x1024 .f32) (harg2 : arg2.IsWhole) (x0 : Vec F S8x1024 .f32) :
    (kernelRun0_A (F := F) c i arg1 harg1 arg2 harg2 x0).1
      = pb_k0_t1 Variants.none c none i arg1 harg1 arg2 harg2 (harg1.unread x0) k0_t1_loop.trips := by
  unfold kernelRun0_A
  dsimp only

/-- One trip stores one piece: row `k` of the output block receives the result of row `k` of the input block. -/
theorem trip_piece (c : Dev nD) (i : grid0.Coords) (arg1 : Memref sig .tc .vmem S8x1024 .f32) (harg1 : arg1.IsWhole)
    (arg2 : Memref sig .tc .vmem S8x1024 .f32) (harg2 : arg2.IsWhole) (X : BufTy.Contents (Elt F) arg1.view.ty)
    (k : Fin k0_t1_loop.trips) :
    tripL_k0_t1 (F := F) Variants.none c none i arg1 harg1 arg2 harg2 X k
      = [⟨Rect.unit (s := S8x1024) (k0_off1 k) S1x1024.size (k0_off1_inb k),
          rowOut (View.readAt (Elt F) arg1.view (Rect.unit (s := S8x1024) (k0_off1 k) S1x1024.size (k0_off1_inb k)).toLoadRect X)⟩] := by
  unfold tripL_k0_t1 trip_k0_t1
  dsimp only
  rfl

/-- Trip `k`'s store writes `blockOut` of the input block on its row. -/
theorem trip_agree (c : Dev nD) (i : grid0.Coords) (arg1 : Memref sig .tc .vmem S8x1024 .f32) (harg1 : arg1.IsWhole)
    (arg2 : Memref sig .tc .vmem S8x1024 .f32) (harg2 : arg2.IsWhole) (x0 : Vec F S8x1024 .f32)
    (k : Fin k0_t1_loop.trips) :
    ∀ p ∈ tripL_k0_t1 (F := F) Variants.none c none i arg1 harg1 arg2 harg2 (harg1.unread x0) k,
      ∀ x : p.1.shape.Idx, p.2 x = blockOut x0 (p.1.emb x) := by
  rw [trip_piece]
  intro p hp
  obtain rfl := List.mem_singleton.mp hp
  intro x
  have hk : k.val < 8 := lt_of_lt_of_eq k.isLt trips_eq
  have hoff0 : k0_off1 k 0 = k.val := congrFun (off_eq k) 0
  have hoff1 : k0_off1 k 1 = 0 := congrFun (off_eq k) 1
  show rowOut (View.readAt (Elt F) arg1.view (Rect.unit (s := S8x1024) (k0_off1 k) S1x1024.size (k0_off1_inb k)).toLoadRect (harg1.unread x0)) x = blockOut x0 _
  rw [View.readAt_eq_ld, harg1.read_unread]
  show rowOut (View.ld x0 (Rect.unit (s := S8x1024) (k0_off1 k) S1x1024.size (k0_off1_inb k))) x = _
  rw [ld_row x0 _ k.val hk (off_eq k)]
  have e0 : (⟨k.val, hk⟩ : Fin 8) = ((Rect.unit (s := S8x1024) (k0_off1 k) S1x1024.size (k0_off1_inb k)).emb x) 0 := by
    apply Fin.ext
    show k.val = (k0_off1 k) 0 + 1 * (x 0).val
    have h1 : (x 0).val < 1 := (x 0).isLt
    omega
  have e1 : x = ix2 (0 : Fin 1) (((Rect.unit (s := S8x1024) (k0_off1 k) S1x1024.size (k0_off1_inb k)).emb x) 1) := by
    funext a
    apply Fin.ext
    match a with
    | ⟨0, _⟩ => show (x 0).val = 0; have h1 : (x 0).val < 1 := (x 0).isLt; omega
    | ⟨1, _⟩ =>
      show (x 1).val = (k0_off1 k) 1 + 1 * (x 1).val
      omega
  exact congrArg₂ (fun r z => rowOut (rowOf x0 r) z) e0 e1

/-- All the stores of the first `n` trips write `blockOut` of the input block. -/
theorem pieces_agree (c : Dev nD) (i : grid0.Coords) (arg1 : Memref sig .tc .vmem S8x1024 .f32) (harg1 : arg1.IsWhole)
    (arg2 : Memref sig .tc .vmem S8x1024 .f32) (harg2 : arg2.IsWhole) (x0 : Vec F S8x1024 .f32) :
    ∀ n : Nat, n ≤ k0_t1_loop.trips →
      ∀ p ∈ pb_k0_t1 (F := F) Variants.none c none i arg1 harg1 arg2 harg2 (harg1.unread x0) n,
        ∀ x : p.1.shape.Idx, p.2 x = blockOut x0 (p.1.emb x)
  | 0, _, p, hp => by simp [pb_k0_t1] at hp
  | n + 1, hn, p, hp => by
    have e := pb_k0_t1_succ (F := F) Variants.none c none i arg1 harg1 arg2 harg2 (harg1.unread x0) ⟨n, hn⟩
    have hp' : p ∈ tripL_k0_t1 (F := F) Variants.none c none i arg1 harg1 arg2 harg2 (harg1.unread x0) ⟨n, hn⟩
        ++ pb_k0_t1 (F := F) Variants.none c none i arg1 harg1 arg2 harg2 (harg1.unread x0) n := e ▸ hp
    rcases List.mem_append.mp hp' with h | h
    · exact trip_agree c i arg1 harg1 arg2 harg2 x0 ⟨n, hn⟩ p h
    · exact pieces_agree c i arg1 harg1 arg2 harg2 x0 n (Nat.le_of_lt hn) p h

/-- What the body leaves in the output's staging buffer is `blockOut` of the input block. -/
theorem out_block (c : Dev nD) (i : grid0.Coords) (arg1 : Memref sig .tc .vmem S8x1024 .f32) (harg1 : arg1.IsWhole)
    (arg2 : Memref sig .tc .vmem S8x1024 .f32) (harg2 : arg2.IsWhole) (x0 : Vec F S8x1024 .f32) :
    out0_A_1 (F := F) c i arg1 harg1 arg2 harg2 x0 = blockOut x0 := by
  unfold out0_A_1
  rw [View.read_writes_eq_canon _ _ _ (cover0_A_1 c i arg1 harg1 arg2 harg2 x0)]
  funext y
  refine View.canon_apply_of_pieces (blockOut x0) _ ?_ y (cover0_A_1 c i arg1 harg1 arg2 harg2 x0 y)
  rw [run_pieces]
  exact pieces_agree c i arg1 harg1 arg2 harg2 x0 _ (Nat.le_refl _)

end Cert.KernelIdeal.Rows

end
-- ==== Proof.KernelArray.lean ====
import proofs.«141201_j10222022164545_1_alg».proof.Proof.Gen.KernelIdeal.Value
import proofs.«141201_j10222022164545_1_alg».proof.Proof.KernelRows

/-!
From blocks to the array. Grid point `t` (of eight) stages rows `8t … 8t+7` of the input and writes the same
rows of the output, all 1024 columns. Since each output row is a function of the same input row alone, the
whole output array is one function of the input array: entry `(R, j)` is entry `j` of the result of row `R`.
-/

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- Row `R` of the 64-row array, as a one-row vector. -/
def rowAt (X : S64x1024.Idx → F .f32) (R : Fin 64) : Vec F S1x1024 .f32 := fun z => X (ix2 R (z 1))

/-- The output array as a function of the input array. -/
def arrayOut (X : S64x1024.Idx → F .f32) : S64x1024.Idx → F .f32 := fun i => rowOut (rowAt X (i 0)) (ix2 0 (i 1))

/-- Both windows' block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `arrayOut` of the input array. -/
theorem flushed_eq (c : Dev nD) (t : Fin cfg0.N) :
    (dats m 0 c).flushed 1 t = ((cfg0.win 1).blk t).view.read (Elt F) (arrayOut (V m c main_arg0)) := by
  rw [Value.flushed1_A, out_block]
  obtain ⟨e0, e1, e2, e3⟩ := idx_facts t
  have ht : t.val < 8 := t.isLt
  funext j
  show blockOut (iblk m c 0 t) j = arrayOut (V m c main_arg0) (((cfg0.win 1).blk t).view.emb j)
  have hj0 : (j 0).val < 8 := (j 0).isLt
  have hj1 : (j 1).val < 1024 := (j 1).isLt
  have hA : rowOf (iblk m c 0 t) (j 0) = rowAt (V m c main_arg0) ((((cfg0.win 1).blk t).view.emb j) 0) := by
    funext z
    show V m c main_arg0 (((cfg0.win 0).blk t).view.emb (ix2 (j 0) (z 1))) = V m c main_arg0 (ix2 ((((cfg0.win 1).blk t).view.emb j) 0) (z 1))
    congr 1
    funext a
    apply Fin.ext
    match a with
    | ⟨0, _⟩ => show win0_0.index t (0 : Fin 2) * 8 + 1 * (j 0).val = win0_1.index t (0 : Fin 2) * 8 + 1 * (j 0).val; omega
    | ⟨1, _⟩ => show win0_0.index t (1 : Fin 2) * 1024 + 1 * (z 1).val = (z 1).val; omega
  have hB : ix2 (0 : Fin 1) (j 1) = ix2 (0 : Fin 1) ((((cfg0.win 1).blk t).view.emb j) 1) := by
    congr 1
    apply Fin.ext
    show (j 1).val = win0_1.index t (1 : Fin 2) * 1024 + 1 * (j 1).val
    omega
  exact congrArg₂ (fun r z => rowOut r z) hA hB

/-- An index of the array is in point `t`'s block iff its row is one of the block's eight. -/
theorem mem_blk (t : Fin cfg0.N) (i : S64x1024.Idx) :
    i ∈ ((cfg0.win 1).blk t).view.set ↔ ∀ a : Fin 2, win0_1.index t a * S8x1024.size a ≤ (i a).val ∧ (i a).val < win0_1.index t a * S8x1024.size a + S8x1024.size a := by
  show i ∈ ((View.whole main_v0).slice (win0_1.rect t)).set ↔ _
  rw [View.set_slice_whole, Rect.mem_set_unit]
  exact Iff.rfl

/-- Every index of the output array lies in some point's block: row `R` in block `R / 8`. -/
theorem cover (i : S64x1024.Idx) : ∃ t : Fin cfg0.N, (cfg0.win 1).flush t = true ∧ i ∈ ((cfg0.win 1).blk t).view.set := by
  have hi0 : (i 0).val < 64 := (i 0).isLt
  have hi1 : (i 1).val < 1024 := (i 1).isLt
  have hN : cfg0.N = 8 := N_0
  refine ⟨⟨(i 0).val / 8, by rw [hN]; omega⟩, flush0_1 _, ?_⟩
  rw [mem_blk]
  obtain ⟨e0, e1, e2, e3⟩ := idx_facts ⟨(i 0).val / 8, by rw [hN]; omega⟩
  intro a
  match a with
  | ⟨0, _⟩ => show win0_1.index _ (0 : Fin 2) * 8 ≤ (i 0).val ∧ (i 0).val < win0_1.index _ (0 : Fin 2) * 8 + 8; rw [e2]; show (i 0).val / 8 * 8 ≤ (i 0).val ∧ (i 0).val < (i 0).val / 8 * 8 + 8; omega
  | ⟨1, _⟩ => show win0_1.index _ (1 : Fin 2) * 1024 ≤ (i 1).val ∧ (i 1).val < win0_1.index _ (1 : Fin 2) * 1024 + 1024; rw [e3]; omega

/-- The output array after the run is `arrayOut` of the input array. -/
theorem final (c : Dev nD) : (dats m 0 c).arrAt 1 cfg0.N = arrayOut (m ((c : Thread nD τ).loc main_arg0)) :=
  (dats m 0 c).arrAt_eq_of_cover 1 (arrayOut (V m c main_arg0)) (fun t _ => flushed_eq m c t) cover

/-- The kernel's run: every execution ends with the result array at `arrayOut` of the input, the input unchanged. -/
theorem run : θ_run defs (onTc (τ := τ) (main (F := F))) ⟨m, fun _ => 0, ρ⟩ fun r => ∀ c : Dev nD,
      r.2.mem ((c : Thread nD τ).loc main_v0) = arrayOut (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Rows

end
-- ==== Proof.RowSpec.lean ====
import Idealize.ShloMosaic.PureOps.Ideal

/-!
The common value of the two programs on one row `x` of 1024 reals.

Let `a i j = x j - x i` for `i < j` and `0` otherwise (a 1024 × 1024 matrix). Its unbiased variance over all
`2^20` entries has the closed form `varR x` below (sums of `x`, of `x²` and of `x` weighted by `2i - 1023`).
With the scale `c = 6.8 / √(varR x)` the result at position `q` is
`(∑ i, σ((x i - x q) · c) + 1/2) / 1024`, where `σ z = 1 / (1 + e^{-z})`; the term `i = q` is `σ 0 = 1/2`.
-/

noncomputable section

namespace RowSpec

open Idealize.ShloMosaic

/-- The unbiased variance of the `2^20` entries of the strictly upper triangular matrix of pairwise differences of
    `x`, in closed form: `(1024 ∑ x² - (∑ x)² - (∑ x_i (2i - 1023))² / 2^20) / (2^20 - 1)`. -/
def varR (x : Fin 1024 → ℝ) : ℝ :=
  ((1024 * ∑ i, x i * x i - (∑ i, x i) * (∑ i, x i))
    - (∑ i, x i * (2 * ((i : ℕ) : ℝ) - 1023)) * (∑ i, x i * (2 * ((i : ℕ) : ℝ) - 1023)) / 1048576) / 1048575

/-- The scale: the single-precision constant nearest 6.8, divided by the standard deviation. -/
def scaleE (x : Fin 1024 → ℝ) : EReal :=
  Ideal.div (Ideal.ofBits .f32 0x40D9999A#32) (Ideal.sqrt ((varR x : ℝ) : EReal))

/-- The result at position `q` of the row. -/
def rowSpec (x : Fin 1024 → ℝ) (q : Fin 1024) : EReal :=
  Ideal.div ((∑ i, Ideal.logistic (((x i - x q : ℝ) : EReal) * scaleE x)) + ((1 / 2 : ℝ) : EReal))
    ((1024 : ℝ) : EReal)

end RowSpec

end
-- ==== Proof.KernelStages.lean ====
import proofs.«141201_j10222022164545_1_alg».proof.Proof.KernelRows
import proofs.«141201_j10222022164545_1_alg».proof.Proof.RowSpec
import Idealize.ShloMosaic.Lib.ValueLayout
import Idealize.ShloMosaic.PureOps.Ideal.Laws

/-!
The loop body's arithmetic on one row, named stage by stage: the three lane sums (of the row, of its squares, and
of the row weighted by `2 i - 1023`), the scale `6.8 / √variance` they give, the 1024 × 1024 matrix of logistic
values of the scaled pairwise differences, and its column sums.
-/

noncomputable section

namespace Cert.KernelIdeal.Rows

open Cert.KernelIdeal Cert.KernelIdeal.Gen Idealize.ShloMosaic Idealize.ShloMosaic.ValueIdx

variable {F : FTy → Type} [FloatOps F]

/-- A one-row vector viewed flat and back: the same vector. -/
def castRow (v4 : Vec F S1x1024 .f32) : FVec F S1x1024 .f32 :=
  shapeCast S1x1024 (shapeCast S1024 v4 shapeCasts_S1x1024_S1024) shapeCasts_S1024_S1x1024

/-- The sum of a row's 1024 lanes, kept as a 1 × 1 vector. -/
def laneSum (v : FVec F S1x1024 .f32) : FVec F S1x1 .f32 :=
  shapeCast S1x1 (multiReduction .add [1] S1 v 0x00000000#32 reduces_S1x1024_S1 (.inl rfl) rfl) shapeCasts_S1_S1x1

/-- The weights `2 i - 1023` along the row. -/
def weights : FVec F S1x1024 .f32 :=
  subf (mulf (broadcast S1x1024 (Scalar.ofBits .f32 0x40000000#32)) (sitofp .f32 (iota .tc S1x1024 32 [1] iota_S1x1024_d1_w32)))
    (broadcast S1x1024 (Scalar.ofBits .f32 0x447FC000#32))

/-- The variance of the masked difference matrix from the three lane sums, then 6.8 over its square root. -/
def scale11 (v6 : FVec F S1x1024 .f32) : FVec F S1x1 .f32 :=
  divf (broadcast S1x1 (Scalar.ofBits .f32 0x40D9999A#32))
    (sqrt (divf
      (subf (subf (mulf (broadcast S1x1 (Scalar.ofBits .f32 0x44800000#32)) (laneSum (mulf v6 v6))) (mulf (laneSum v6) (laneSum v6)))
        (divf (mulf (laneSum (mulf v6 weights)) (laneSum (mulf v6 weights))) (broadcast S1x1 (Scalar.ofBits .f32 0x49800000#32))))
      (broadcast S1x1 (Scalar.ofBits .f32 0x497FFFF0#32))))

/-- The logistic function of `(row i - row j) · s` at every pair `(i, j)`. -/
def pairSig (v6 : FVec F S1x1024 .f32) (s : FVec F S1x1 .f32) : FVec F S1024x1024 .f32 :=
  logistic (mulf
    (subf (broadcastTo S1024x1024 (transpose S1024x1 [1, 0] v6 transposes_S1x1024_p1_0_S1024x1) broadcasts_S1024x1_S1024x1024)
      (broadcastTo S1024x1024 v6 broadcasts_S1x1024_S1024x1024))
    (broadcastTo S1024x1024 s broadcasts_S1x1_S1024x1024))

/-- The column sums of a 1024 × 1024 matrix, as a one-row vector. -/
def colSums (w : FVec F S1024x1024 .f32) : FVec F S1x1024 .f32 :=
  shapeCast S1x1024 (multiReduction .add [0] S1024 w 0x00000000#32 reduces_S1024x1024_S1024 (.inl rfl) rfl) shapeCasts_S1024_S1x1024

/-- The body's arithmetic is these stages composed. -/
theorem pay2_eq (v4 : Vec F S1x1024 .f32) :
    k0_pay2 v4 = addf (colSums (pairSig (castRow v4) (scale11 (castRow v4)))) (broadcast S1x1024 (Scalar.ofBits .f32 0x3F000000#32)) := rfl

/-- The stored row: the stages' result over 1024. -/
theorem rowOut_eq (xr : Vec F S1x1024 .f32) :
    rowOut xr = shapeCast S1x1024 (shapeCast S1024
      (divf (addf (colSums (pairSig (castRow xr) (scale11 (castRow xr)))) (broadcast S1x1024 (Scalar.ofBits .f32 0x3F000000#32)))
        (broadcast S1x1024 (Scalar.ofBits .f32 0x44800000#32))) shapeCasts_S1x1024_S1024) shapeCasts_S1024_S1x1024 := rfl

theorem castRow_eq (v4 : Vec F S1x1024 .f32) : castRow v4 = v4 := shapeCast_shapeCast _ _ _

end Cert.KernelIdeal.Rows

end
-- ==== Proof.KernelReads.lean ====
import proofs.«141201_j10222022164545_1_alg».proof.Proof.KernelStages
import Idealize.ShloMosaic.Lib.Pipeline.Value

/-!
The stages of the loop body read at an index, at exact real arithmetic: a lane sum is the sum over the 1024 lanes,
a column sum is the sum over the 1024 rows, and the pair matrix at `(i, j)` is the logistic function of
`(row i - row j) · s`.
-/

noncomputable section

namespace Cert.KernelIdeal.Rows

open Cert.KernelIdeal Cert.KernelIdeal.Gen Idealize.ShloMosaic Idealize.ShloMosaic.ValueIdx

/-- A lane sum is the sum of the row's 1024 entries. -/
theorem laneSum_apply (v : FVec Ideal S1x1024 .f32) :
    laneSum (F := Ideal) v (ix2 (0 : Fin 1) (0 : Fin 1)) = ∑ k : Fin 1024, v (ix2 (0 : Fin 1) k) := by
  unfold laneSum
  refine (shapeCast_a_1a_apply _ _ (0 : Fin 1) (0 : Fin 1)).trans ?_
  refine (Ideal.multiReduction_add_single v 0x00000000#32 reduces_S1x1024_S1 (.inl rfl) rfl (ix1 (0 : Fin 1))).trans ?_
  refine Finset.sum_congr rfl fun k _ => congrArg v (funext fun a => Fin.ext ?_)
  match a with
  | ⟨0, _⟩ => rfl
  | ⟨1, _⟩ => rfl

/-- A column sum is the sum over the 1024 rows. -/
theorem colSums_apply (w : FVec Ideal S1024x1024 .f32) (q : Fin 1024) :
    colSums (F := Ideal) w (ix2 (0 : Fin 1) q) = ∑ i : Fin 1024, w (ix2 i q) := by
  unfold colSums
  refine (shapeCast_a_1a_apply _ _ (0 : Fin 1) q).trans ?_
  refine (Ideal.multiReduction_add_single w 0x00000000#32 reduces_S1024x1024_S1024 (.inl rfl) rfl (ix1 q)).trans ?_
  refine Finset.sum_congr rfl fun k _ => congrArg w (funext fun a => Fin.ext ?_)
  match a with
  | ⟨0, _⟩ => rfl
  | ⟨1, _⟩ => rfl

/-- The pair matrix at `(i, j)`. -/
theorem pairSig_apply (v6 : FVec Ideal S1x1024 .f32) (s : FVec Ideal S1x1 .f32) (i j : Fin 1024) :
    pairSig (F := Ideal) v6 s (ix2 i j)
      = Ideal.logistic ((v6 (ix2 (0 : Fin 1) i) - v6 (ix2 (0 : Fin 1) j)) * s (ix2 (0 : Fin 1) (0 : Fin 1))) := by
  unfold pairSig
  show Ideal.logistic ((broadcastTo S1024x1024 (transpose S1024x1 [1, 0] v6 transposes_S1x1024_p1_0_S1024x1) broadcasts_S1024x1_S1024x1024 (ix2 i j)
      - broadcastTo S1024x1024 v6 broadcasts_S1x1024_S1024x1024 (ix2 i j))
      * broadcastTo S1024x1024 s broadcasts_S1x1_S1024x1024 (ix2 i j)) = _
  have h1 : broadcastTo S1024x1024 (transpose S1024x1 [1, 0] v6 transposes_S1x1024_p1_0_S1024x1) broadcasts_S1024x1_S1024x1024 (ix2 i j)
      = v6 (ix2 (0 : Fin 1) i) := by
    refine (broadcastTo_apply _ _ (ix2 i j) (ix2 i (0 : Fin 1)) fun a => ?_).trans ?_
    · match a with
      | ⟨0, _⟩ => rfl
      | ⟨1, _⟩ => rfl
    · exact transpose_ix2_apply v6 _ i (0 : Fin 1)
  have h2 : broadcastTo S1024x1024 v6 broadcasts_S1x1024_S1024x1024 (ix2 i j) = v6 (ix2 (0 : Fin 1) j) :=
    broadcastTo_1b_ab_apply v6 _ i j
  have h3 : broadcastTo S1024x1024 s broadcasts_S1x1_S1024x1024 (ix2 i j) = s (ix2 (0 : Fin 1) (0 : Fin 1)) := by
    refine broadcastTo_apply _ _ (ix2 i j) (ix2 (0 : Fin 1) (0 : Fin 1)) fun a => ?_
    match a with
    | ⟨0, _⟩ => rfl
    | ⟨1, _⟩ => rfl
  rw [h1, h2, h3]

end Cert.KernelIdeal.Rows

end
-- ==== Proof.Consts.lean ====
import Idealize.ShloMosaic.PureOps.Ideal.Laws
import Idealize.ShloMosaic.Lib.ValueIdx
import Idealize.ShloMosaic.Lib.Pipeline.Value

/-!
The single-precision constants of the two programs, read as extended reals.

Each bit pattern below is a normal number `(2^23 + T) · 2^(E - 127 - 23)` with exponent field `E` and trailing
significand `T`; the value is an integer or `1/2`, so the right-hand sides are exact. A lane counter
`0 ≤ j < 1024` held in a 32-bit word converts to the real number `j` (the signed reading of the word is `j`
because `j < 2^31`). Division of a real by a nonzero real on the extended reals is the real quotient.
-/

noncomputable section

namespace RowSpec.Consts

open Idealize.ShloMosaic

/-- `0x40000000` is 2. -/
theorem ofBits_two : Ideal.ofBits .f32 0x40000000#32 = ((2 : ℝ) : EReal) := by
  simp [Ideal.ofBits, Ideal.ieee, -EReal.coe_mul]; norm_num

/-- `0x447FC000` is 1023. -/
theorem ofBits_1023 : Ideal.ofBits .f32 0x447FC000#32 = ((1023 : ℝ) : EReal) := by
  simp [Ideal.ofBits, Ideal.ieee, -EReal.coe_mul]; norm_num

/-- `0x44800000` is 1024. -/
theorem ofBits_1024 : Ideal.ofBits .f32 0x44800000#32 = ((1024 : ℝ) : EReal) := by
  simp [Ideal.ofBits, Ideal.ieee, -EReal.coe_mul]; norm_num

/-- `0x49800000` is `2^20`. -/
theorem ofBits_2p20 : Ideal.ofBits .f32 0x49800000#32 = ((1048576 : ℝ) : EReal) := by
  simp [Ideal.ofBits, Ideal.ieee, -EReal.coe_mul]; norm_num

/-- `0x497FFFF0` is `2^20 - 1`. -/
theorem ofBits_2p20m1 : Ideal.ofBits .f32 0x497FFFF0#32 = ((1048575 : ℝ) : EReal) := by
  simp [Ideal.ofBits, Ideal.ieee, -EReal.coe_mul]; norm_num

/-- `0x3F000000` is `1/2`. -/
theorem ofBits_half : Ideal.ofBits .f32 0x3F000000#32 = ((1 / 2 : ℝ) : EReal) := by
  simp [Ideal.ofBits, Ideal.ieee, -EReal.coe_mul]; norm_num

/-- `0x3F800000` is 1. -/
theorem ofBits_one : Ideal.ofBits .f32 0x3F800000#32 = ((1 : ℝ) : EReal) := by
  simp [Ideal.ofBits, Ideal.ieee, -EReal.coe_mul]; norm_num

/-- The signed reading of a 32-bit word holding a lane counter `j < 1024` is `j`. -/
theorem lane_toInt (j : Fin 1024) : (BitVec.ofNat 32 j.val).toInt = (j.val : Int) := by
  have hj : j.val < 1024 := j.isLt
  have hmod : j.val % 2 ^ 32 = j.val := Nat.mod_eq_of_lt (by omega)
  rw [BitVec.toInt_eq_toNat_of_lt (by rw [BitVec.toNat_ofNat, hmod]; omega), BitVec.toNat_ofNat, hmod]

/-- A lane counter converted to a float is the real number `j`. -/
theorem lane_toReal (j : Fin 1024) :
    (FloatOps.sitofp (F := Ideal) .f32 (BitVec.ofNat 32 j.val) : EReal) = (((j.val : ℕ) : ℝ) : EReal) := by
  show (((BitVec.ofNat 32 j.val).toInt : ℝ) : EReal) = (((j.val : ℕ) : ℝ) : EReal)
  rw [lane_toInt]
  norm_cast

/-- Division of a real by a nonzero real is the real quotient. -/
theorem div_real (a b : ℝ) (hb : b ≠ 0) :
    Ideal.div ((a : ℝ) : EReal) ((b : ℝ) : EReal) = ((a / b : ℝ) : EReal) := by
  rw [Ideal.div_coe hb, ← EReal.coe_mul]
  congr 1
  field_simp

end RowSpec.Consts

end
-- ==== Proof.PairSums.lean ====
import Mathlib
namespace PairSums
open Finset BigOperators

/-- the strictly-upper-triangular matrix of pairwise differences -/
def msk {n : ℕ} (x : Fin n → ℝ) (i j : Fin n) : ℝ := if i < j then x j - x i else 0

/-- two-pass sum of squared deviations = one-pass form, over any finite index type -/
theorem sum_sq_dev {ι : Type*} [Fintype ι] (a : ι → ℝ) (N : ℝ) (hN : N = Fintype.card ι) (h0 : N ≠ 0) :
    ∑ p, (a p - (∑ q, a q) / N) * (a p - (∑ q, a q) / N) = ∑ p, a p * a p - (∑ p, a p) * (∑ p, a p) / N := by
  set S := ∑ q, a q with hS
  have h1 : ∀ p, (a p - S / N) * (a p - S / N) = a p * a p - (2 * S / N) * a p + S / N * (S / N) := by
    intro p; ring
  simp_rw [h1]
  rw [Finset.sum_add_distrib, Finset.sum_sub_distrib, ← Finset.mul_sum, Finset.sum_const, Finset.card_univ,
    nsmul_eq_mul, ← hN, ← hS]
  field_simp
  ring

/-- a symmetric function of two indices vanishing on the diagonal: the full double sum is twice the strictly-upper part -/
theorem sum_upper_of_symm {n : ℕ} (g : Fin n → Fin n → ℝ) (hs : ∀ i j, g i j = g j i) (hd : ∀ i, g i i = 0) :
    ∑ i, ∑ j, g i j = 2 * ∑ i, ∑ j, if i < j then g i j else 0 := by
  have hsplit : ∀ i j, g i j = (if i < j then g i j else 0) + (if j < i then g j i else 0) := by
    intro i j
    rcases lt_trichotomy i j with h | h | h
    · simp [h, not_lt_of_gt h]
    · subst h; simp [hd]
    · simp [h, not_lt_of_gt h, hs i j]
  calc ∑ i, ∑ j, g i j
      = ∑ i, ∑ j, ((if i < j then g i j else 0) + (if j < i then g j i else 0)) := by
        apply Finset.sum_congr rfl; intro i _; apply Finset.sum_congr rfl; intro j _; exact hsplit i j
    _ = ∑ i, ∑ j, (if i < j then g i j else 0) + ∑ i, ∑ j, (if j < i then g j i else 0) := by
        simp_rw [Finset.sum_add_distrib]
    _ = 2 * ∑ i, ∑ j, if i < j then g i j else 0 := by
        rw [Finset.sum_comm (f := fun i j => if j < i then g j i else 0)]; ring

/-- the full symmetric double sum of squared differences -/
theorem sum_sym {n : ℕ} (x : Fin n → ℝ) :
    ∑ i, ∑ j, (x j - x i) * (x j - x i) = 2 * ((n : ℝ) * ∑ i, x i * x i - (∑ i, x i) * (∑ i, x i)) := by
  have h1 : ∀ i j, (x j - x i) * (x j - x i) = x j * x j - 2 * (x i * x j) + x i * x i := by intros; ring
  simp_rw [h1, Finset.sum_add_distrib, Finset.sum_sub_distrib]
  have e1 : ∑ _i : Fin n, ∑ j : Fin n, x j * x j = (n : ℝ) * ∑ j, x j * x j := by simp
  have e2 : ∑ i : Fin n, ∑ j : Fin n, 2 * (x i * x j) = 2 * ((∑ i, x i) * (∑ i, x i)) := by
    rw [Finset.sum_mul_sum, Finset.mul_sum]
    apply Finset.sum_congr rfl; intro i _; rw [Finset.mul_sum]
  have e3 : ∑ i : Fin n, ∑ _j : Fin n, x i * x i = (n : ℝ) * ∑ i, x i * x i := by
    simp [Finset.mul_sum]
  rw [e1, e2, e3]; ring

theorem sum_msk_sq {n : ℕ} (x : Fin n → ℝ) :
    ∑ i, ∑ j, msk x i j * msk x i j = (n : ℝ) * ∑ i, x i * x i - (∑ i, x i) * (∑ i, x i) := by
  have hm : ∀ i j, msk x i j * msk x i j = if i < j then (x j - x i) * (x j - x i) else 0 := by
    intro i j; unfold msk; split_ifs <;> simp
  simp_rw [hm]
  have h := sum_upper_of_symm (fun i j => (x j - x i) * (x j - x i)) (by intros; ring) (by intro i; simp)
  rw [sum_sym] at h
  linarith

theorem sum_msk {n : ℕ} (x : Fin n → ℝ) :
    ∑ i, ∑ j, msk x i j = ∑ i, x i * (2 * ((i : ℕ) : ℝ) - ((n : ℝ) - 1)) := by
  have hm : ∀ i j, msk x i j = (if i < j then x j else 0) - (if i < j then x i else 0) := by
    intro i j; unfold msk; split_ifs <;> simp
  simp_rw [hm, Finset.sum_sub_distrib]
  -- column j receives x j once for every row index below j
  have hA : ∑ i : Fin n, ∑ j : Fin n, (if i < j then x j else 0) = ∑ j : Fin n, ((j : ℕ) : ℝ) * x j := by
    rw [Finset.sum_comm]
    apply Finset.sum_congr rfl; intro j _
    rw [← Finset.sum_filter, Finset.sum_const, nsmul_eq_mul, Finset.filter_gt_eq_Iio, Fin.card_Iio]
  -- row i loses x i once for every column index above i
  have hB : ∑ i : Fin n, ∑ j : Fin n, (if i < j then x i else 0)
      = ∑ i : Fin n, ((n : ℝ) - 1 - ((i : ℕ) : ℝ)) * x i := by
    apply Finset.sum_congr rfl; intro i _
    rw [← Finset.sum_filter, Finset.sum_const, nsmul_eq_mul, Finset.filter_lt_eq_Ioi, Fin.card_Ioi]
    have hi := i.isLt
    rw [Nat.cast_sub (by omega), Nat.cast_sub (by omega)]; simp
  rw [hA, hB, ← Finset.sum_sub_distrib]
  apply Finset.sum_congr rfl; intro i _; ring

/-- THE MAIN IDENTITY (two-pass over the n×n matrix = the closed form); N = n*n -/
theorem var_two_pass {n : ℕ} (hn : n ≠ 0) (x : Fin n → ℝ) :
    ∑ i, ∑ j, (msk x i j - (∑ i', ∑ j', msk x i' j') / ((n : ℝ) * n)) * (msk x i j - (∑ i', ∑ j', msk x i' j') / ((n : ℝ) * n))
      = ((n : ℝ) * ∑ i, x i * x i - (∑ i, x i) * (∑ i, x i))
        - (∑ i, x i * (2 * ((i : ℕ) : ℝ) - ((n : ℝ) - 1))) * (∑ i, x i * (2 * ((i : ℕ) : ℝ) - ((n : ℝ) - 1))) / ((n : ℝ) * n) := by
  have hN : ((n : ℝ) * n) = Fintype.card (Fin n × Fin n) := by simp [Fintype.card_prod]
  have h0 : ((n : ℝ) * n) ≠ 0 := by
    have : (n : ℝ) ≠ 0 := Nat.cast_ne_zero.mpr hn
    exact mul_ne_zero this this
  have h := sum_sq_dev (fun p : Fin n × Fin n => msk x p.1 p.2) ((n : ℝ) * n) hN h0
  simp only [Fintype.sum_prod_type] at h
  rw [h, sum_msk_sq, sum_msk]

/-- the same for the NEGATED matrix -/
theorem var_two_pass_neg {n : ℕ} (x : Fin n → ℝ) :
    ∑ i, ∑ j, (-(msk x i j) - (∑ i', ∑ j', -(msk x i' j')) / ((n : ℝ) * n)) * (-(msk x i j) - (∑ i', ∑ j', -(msk x i' j')) / ((n : ℝ) * n))
      = ∑ i, ∑ j, (msk x i j - (∑ i', ∑ j', msk x i' j') / ((n : ℝ) * n)) * (msk x i j - (∑ i', ∑ j', msk x i' j') / ((n : ℝ) * n)) := by
  simp only [Finset.sum_neg_distrib]
  apply Finset.sum_congr rfl; intro i _; apply Finset.sum_congr rfl; intro j _; ring

/-- a sum over Fin n split at m into the part above, the part below and the entry at m -/
theorem sum_split_at {M : Type*} [AddCommMonoid M] {n : ℕ} (f : Fin n → M) (m : Fin n) :
    (∑ j, if m < j then f j else 0) + (∑ i, if i < m then f i else 0) + f m = ∑ i, f i := by
  have hm : f m = ∑ i, if i = m then f i else 0 := by simp
  rw [hm, ← Finset.sum_add_distrib, ← Finset.sum_add_distrib]
  apply Finset.sum_congr rfl
  intro i _
  rcases lt_trichotomy m i with h | h | h
  · simp [h, not_lt_of_gt h, h.ne']
  · subst h; simp
  · simp [h, not_lt_of_gt h, h.ne]

/-- coercion ℝ → EReal commutes with finite sums -/
theorem ereal_coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end PairSums
-- ==== Proof.KernelRowValue.lean ====
import proofs.«141201_j10222022164545_1_alg».proof.Proof.KernelReads
import proofs.«141201_j10222022164545_1_alg».proof.Proof.Consts
import proofs.«141201_j10222022164545_1_alg».proof.Proof.PairSums

/-!
On a row of real numbers the loop body computes `RowSpec.rowSpec`: the three lane sums are real sums, so the
variance is the real number `RowSpec.varR`, the scale is `RowSpec.scaleE`, and the stored entry `q` is
`(∑ i, σ((x i - x q) · scale) + 1/2) / 1024`.
-/

noncomputable section

namespace Cert.KernelIdeal.Rows

open Cert.KernelIdeal Cert.KernelIdeal.Gen Idealize.ShloMosaic Idealize.ShloMosaic.ValueIdx RowSpec.Consts

/-- The weight at lane `j` is the real number `2 j - 1023`. -/
theorem weights_apply (j : Fin 1024) :
    weights (F := Ideal) (ix2 (0 : Fin 1) j) = (((2 : ℝ) * ((j.val : ℕ) : ℝ) - 1023 : ℝ) : EReal) := by
  unfold weights
  show Ideal.ofBits .f32 0x40000000#32 * (sitofp (F := Ideal) .f32 (iota .tc S1x1024 32 [1] iota_S1x1024_d1_w32) (ix2 (0 : Fin 1) j))
      - Ideal.ofBits .f32 0x447FC000#32 = _
  rw [sitofp_apply, iota_single_apply]
  show Ideal.ofBits .f32 0x40000000#32 * (FloatOps.sitofp (F := Ideal) .f32 (BitVec.ofNat 32 j.val)) - Ideal.ofBits .f32 0x447FC000#32 = _
  rw [lane_toReal j, ofBits_two, ofBits_1023, ← EReal.coe_mul, ← EReal.coe_sub]

section
variable (v6 : FVec Ideal S1x1024 .f32) (x : Fin 1024 → ℝ) (hx : ∀ j : Fin 1024, v6 (ix2 (0 : Fin 1) j) = ((x j : ℝ) : EReal))
include hx

theorem sum_row : laneSum (F := Ideal) v6 (ix2 (0 : Fin 1) (0 : Fin 1)) = ((∑ i, x i : ℝ) : EReal) := by
  rw [laneSum_apply, PairSums.ereal_coe_sum]
  exact Finset.sum_congr rfl fun k _ => hx k

theorem sum_sq : laneSum (F := Ideal) (mulf v6 v6) (ix2 (0 : Fin 1) (0 : Fin 1)) = ((∑ i, x i * x i : ℝ) : EReal) := by
  rw [laneSum_apply, PairSums.ereal_coe_sum]
  refine Finset.sum_congr rfl fun k _ => ?_
  rw [mulf_apply, hx k, ← EReal.coe_mul]

theorem sum_weighted : laneSum (F := Ideal) (mulf v6 weights) (ix2 (0 : Fin 1) (0 : Fin 1))
    = ((∑ i, x i * (2 * ((i : ℕ) : ℝ) - 1023) : ℝ) : EReal) := by
  rw [laneSum_apply, PairSums.ereal_coe_sum]
  refine Finset.sum_congr rfl fun k _ => ?_
  rw [mulf_apply, hx k, weights_apply k, ← EReal.coe_mul]

/-- The scale the body computes is `RowSpec.scaleE`. -/
theorem scale11_apply : scale11 (F := Ideal) v6 (ix2 (0 : Fin 1) (0 : Fin 1)) = RowSpec.scaleE x := by
  unfold scale11
  show Ideal.div (Ideal.ofBits .f32 0x40D9999A#32)
    (Ideal.sqrt (Ideal.div
      ((Ideal.ofBits .f32 0x44800000#32 * laneSum (F := Ideal) (mulf v6 v6) (ix2 (0 : Fin 1) (0 : Fin 1))
          - laneSum (F := Ideal) v6 (ix2 (0 : Fin 1) (0 : Fin 1)) * laneSum (F := Ideal) v6 (ix2 (0 : Fin 1) (0 : Fin 1)))
        - Ideal.div (laneSum (F := Ideal) (mulf v6 weights) (ix2 (0 : Fin 1) (0 : Fin 1)) * laneSum (F := Ideal) (mulf v6 weights) (ix2 (0 : Fin 1) (0 : Fin 1)))
            (Ideal.ofBits .f32 0x49800000#32))
      (Ideal.ofBits .f32 0x497FFFF0#32))) = _
  rw [sum_row v6 x hx, sum_sq v6 x hx, sum_weighted v6 x hx, ofBits_1024, ofBits_2p20, ofBits_2p20m1,
    ← EReal.coe_mul, ← EReal.coe_mul, ← EReal.coe_mul, ← EReal.coe_sub,
    div_real _ _ (by norm_num), ← EReal.coe_sub, div_real _ _ (by norm_num)]
  rfl

/-- The stored entry `q` of the row is `RowSpec.rowSpec x q`. -/
theorem rowOut_apply (q : Fin 1024) : rowOut (F := Ideal) v6 (ix2 (0 : Fin 1) q) = RowSpec.rowSpec x q := by
  rw [rowOut_eq, shapeCast_shapeCast, castRow_eq]
  show Ideal.div (colSums (F := Ideal) (pairSig v6 (scale11 v6)) (ix2 (0 : Fin 1) q) + Ideal.ofBits .f32 0x3F000000#32)
    (Ideal.ofBits .f32 0x44800000#32) = _
  rw [colSums_apply, ofBits_half, ofBits_1024]
  unfold RowSpec.rowSpec
  congr 2
  refine Finset.sum_congr rfl fun i _ => ?_
  rw [pairSig_apply, scale11_apply v6 x hx, hx i, hx q, ← EReal.coe_sub]

end

end Cert.KernelIdeal.Rows

end
-- ==== Proof.RefRead.lean ====
/-
  The reference's result read entry by entry.

  For an argument array X whose entries are reals, X[b, j] = x b j, every stage of the reference's term is read at
  one index: the mask is the bit 1 exactly where i < j; the masked differences at (b, i, j) are the real
  x b j - x b i for i < j and 0 elsewhere; a sum over the last two axes is the double sum over rows and columns of
  one batch row; the mean, the squared deviations and the unbiased variance over the 2^20 entries are real, and the
  variance is the closed form (the identity of the two-pass and the one-pass formulas, for the matrix and for its
  negation); the soft step at (b, i, j) is the logistic function of the entry times 6.8 over the standard deviation
  for i < j and 0 elsewhere. The row sums of the first soft step and the column sums of the second are the parts
  above and below position q of one sum over the whole row, whose entry at q is the logistic function at 0, one
  half; with the added one this gives the sum over the row plus one half, over 1024.
-/
import proofs.«141201_j10222022164545_1_alg».proof.Proof.RefTerm
import proofs.«141201_j10222022164545_1_alg».proof.Proof.PairSums
import proofs.«141201_j10222022164545_1_alg».proof.Proof.RowSpec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRead

open Cert.ReferenceIdeal Cert.ReferenceIdeal.RefTerm Idealize.ShloMosaic Idealize.ShloMosaic.ValueIdx
open Facts₀ Facts
open scoped BigOperators

variable [Cert.ReferenceIdeal.Facts]

/-- Signed comparison of two small naturals read as 32-bit words is the comparison of the naturals. -/
theorem sle_ofNat (i j : ℕ) (hi : i < 1024) (hj : j < 1024) :
    (BitVec.ofNat 32 j).sle (BitVec.ofNat 32 i + 0#32) = decide (j ≤ i) := by
  have h1 : (BitVec.ofNat 32 j).toInt = (j : ℤ) := by
    rw [BitVec.toInt_eq_toNat_of_lt (by simp [BitVec.toNat_ofNat]; omega)]
    simp [BitVec.toNat_ofNat]; omega
  have h2 : (BitVec.ofNat 32 i + 0#32).toInt = (i : ℤ) := by
    rw [BitVec.add_zero, BitVec.toInt_eq_toNat_of_lt (by simp [BitVec.toNat_ofNat]; omega)]
    simp [BitVec.toNat_ofNat]; omega
  simp only [BitVec.sle, h1, h2]
  simp

/-- The mask at (i, j) is the bit 1 exactly where i < j. -/
theorem upperMask_apply (i j : Fin 1024) : upperMask (ix2 i j) = if i < j then 1#1 else 0#1 := by
  unfold upperMask
  rw [select_apply]
  have hc : (cmpi .sge (addi (iotaInDim S1024x1024 32 0)
      (broadcastInDim S1024x1024 ![] bcast_S_S1024x1024 (constantI S_ 32 0#32))) (iotaInDim S1024x1024 32 1)) (ix2 i j)
      = BitVec.ofBool (decide (j.val ≤ i.val)) := by
    show IntOp.cmpi .sge (IntOp.addi (BitVec.ofNat 32 i.val)
      (broadcastInDim S1024x1024 ![] bcast_S_S1024x1024 (constantI S_ 32 0#32) (ix2 i j))) (BitVec.ofNat 32 j.val) = _
    rw [broadcastInDim_scalar_apply]
    show BitVec.ofBool ((BitVec.ofNat 32 j.val).sle (BitVec.ofNat 32 i.val + 0#32)) = _
    rw [sle_ofNat _ _ i.isLt j.isLt]
  rw [hc, broadcastInDim_scalar_apply, broadcastInDim_scalar_apply]
  show Scalar.select (BitVec.ofBool (decide (j.val ≤ i.val))) 0#1 1#1 = _
  by_cases h : i < j
  · have h' : ¬ j.val ≤ i.val := by have := Fin.lt_def.mp h; omega
    rw [if_pos h, decide_eq_false h']
    exact select_zero _ _
  · have h' : j.val ≤ i.val := by have := Fin.lt_def.not.mp h; omega
    rw [if_neg h, decide_eq_true h']
    exact select_one _ _

/-- The pairwise differences at (b, i, j). -/
theorem pairDiff_apply (X : FVec Ideal S64x1024 .f32) (b : Fin 64) (i j : Fin 1024) :
    pairDiff (F := Ideal) X (ix3 b i j) = X (ix2 b j) - X (ix2 b i) := by
  unfold pairDiff
  rw [subf_apply]
  congr 1
  · refine (broadcastInDim_apply _ _ _ (ix3 b i j) (ix3 b (0 : Fin 1) j)
      (fun a => match a with | ⟨0, _⟩ => rfl | ⟨1, _⟩ => rfl | ⟨2, _⟩ => rfl)).trans ?_
    exact broadcastInDim_apply _ _ _ (ix3 b (0 : Fin 1) j) (ix2 b j)
      (fun a => match a with | ⟨0, _⟩ => rfl | ⟨1, _⟩ => rfl)
  · refine (broadcastInDim_apply _ _ _ (ix3 b i j) (ix3 b i (0 : Fin 1))
      (fun a => match a with | ⟨0, _⟩ => rfl | ⟨1, _⟩ => rfl | ⟨2, _⟩ => rfl)).trans ?_
    exact broadcastInDim_apply _ _ _ (ix3 b i (0 : Fin 1)) (ix2 b i)
      (fun a => match a with | ⟨0, _⟩ => rfl | ⟨1, _⟩ => rfl)

/-- A masked array at (b, i, j): the value where the mask's bit at (i, j) is 1, the scalar elsewhere. -/
theorem maskedElse_apply (m : IVec S1024x1024 1) (v : FVec Ideal S64x1024x1024 .f32) (z : FVec Ideal S_ .f32)
    (b : Fin 64) (i j : Fin 1024) :
    maskedElse (F := Ideal) m v z (ix3 b i j) = Scalar.select (m (ix2 i j)) (v (ix3 b i j)) (z ix0) := by
  unfold maskedElse
  rw [select_apply]
  congr 1
  · exact broadcastInDim_apply _ _ _ (ix3 b i j) (ix2 i j)
      (fun a => match a with | ⟨0, _⟩ => rfl | ⟨1, _⟩ => rfl)
  · refine (broadcastInDim_apply _ _ _ (ix3 b i j) (ix2 i j)
      (fun a => match a with | ⟨0, _⟩ => rfl | ⟨1, _⟩ => rfl)).trans ?_
    exact broadcastInDim_scalar_apply _ _ _

/-- The scalar zero reads the extended real zero. -/
theorem zeroS_apply (k : S_.Idx) : zeroS (F := Ideal) k = 0 := by
  show Ideal.ofBits .f32 0x00000000#32 = 0
  exact Ideal.ofBits_zero_f32

/-- The masked differences of a real array are the real masked differences. -/
theorem upperDiff_apply (X : FVec Ideal S64x1024 .f32) (x : Fin 64 → Fin 1024 → ℝ)
    (hX : ∀ (b : Fin 64) (j : Fin 1024), X (ix2 b j) = ((x b j : ℝ) : EReal)) (b : Fin 64) (i j : Fin 1024) :
    upperDiff (F := Ideal) X (ix3 b i j) = ((PairSums.msk (x b) i j : ℝ) : EReal) := by
  unfold upperDiff
  rw [maskedElse_apply, upperMask_apply, pairDiff_apply, hX, hX, zeroS_apply]
  unfold PairSums.msk
  by_cases h : i < j
  · rw [if_pos h, if_pos h, select_one, EReal.coe_sub]
  · rw [if_neg h, if_neg h, select_zero, EReal.coe_zero]

/-- The host sum over the last two axes, read at batch row b: the initial value plus the double sum over rows and
    columns of that batch row's matrix. -/
theorem hostReduceAdd_rows_cols (h : S64x1024x1024.ReducesTo [1, 2] S64) (a : S64x1024x1024.Idx → EReal)
    (init : EReal) (b : Fin 64) :
    Ideal.hostReduceAdd h a init (ix1 b) = init + ∑ i : Fin 1024, ∑ j : Fin 1024, a (ix3 b i j) := by
  unfold Ideal.hostReduceAdd
  congr 1
  rw [← Fintype.sum_prod_type' (fun i j => a (ix3 b i j))]
  symm
  refine Finset.sum_bij (fun p _ => ix3 b p.1 p.2) ?_ ?_ ?_ ?_
  · intro p _
    rw [Finset.mem_filter]
    refine ⟨Finset.mem_univ _, ?_⟩
    funext c
    match c with
    | ⟨0, _⟩ => exact Fin.ext rfl
  · intro p _ p' _ e
    exact Prod.ext (congrFun e 1) (congrFun e 2)
  · intro k hk
    rw [Finset.mem_filter] at hk
    refine ⟨(k 1, k 2), Finset.mem_univ _, ?_⟩
    have h0 : k 0 = b := Fin.ext (congrArg Fin.val (congrFun hk.2 0))
    rw [← h0]
    exact (eq_ix3 k).symm
  · intro p _; rfl

/-! ### The scalar constants -/

theorem ofBits_count : Ideal.ofBits .f32 0x49800000#32 = ((1048576 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem countS_apply (k : S_.Idx) : countS (F := Ideal) k = ((1048576 : ℝ) : EReal) := ofBits_count

theorem oneS_apply (k : S_.Idx) : oneS (F := Ideal) k = 1 := Ideal.ofBits_one_f32

/-- The normaliser with one delta degree of freedom is 2^20 - 1. -/
theorem normS_apply (k : S_.Idx) : normS (F := Ideal) ddofOne k = ((1048575 : ℝ) : EReal) := by
  unfold normS
  rw [subf_apply, countS_apply]
  show ((1048576 : ℝ) : EReal) - ((((1#32 : BitVec 32).toInt : ℤ) : ℝ) : EReal) = _
  rw [show (1#32 : BitVec 32).toInt = 1 by decide, ← EReal.coe_sub]
  congr 1
  norm_num

/-- The ideal quotient of two reals, the divisor not zero, is the real quotient. -/
theorem div_coe_coe (r y : ℝ) (hy : y ≠ 0) : Ideal.div ((r : ℝ) : EReal) ((y : ℝ) : EReal) = ((r / y : ℝ) : EReal) := by
  rw [Ideal.div_coe hy, ← EReal.coe_mul, mul_one_div]

/-! ### The sum, the mean, the squared deviations and the variance of one batch row -/

theorem sumAll_apply (a : FVec Ideal S64x1024x1024 .f32) (b : Fin 64) :
    sumAll (F := Ideal) a (ix1 b) = ∑ i : Fin 1024, ∑ j : Fin 1024, a (ix3 b i j) := by
  unfold sumAll
  rw [hostReduceAdd_apply, hostReduceAdd_rows_cols, zeroS_apply, zero_add]

theorem sumAll_coe (a : FVec Ideal S64x1024x1024 .f32) (m : Fin 1024 → Fin 1024 → ℝ) (b : Fin 64)
    (ha : ∀ i j, a (ix3 b i j) = ((m i j : ℝ) : EReal)) :
    sumAll (F := Ideal) a (ix1 b) = ((∑ i, ∑ j, m i j : ℝ) : EReal) := by
  rw [sumAll_apply]
  simp only [ha, PairSums.ereal_coe_sum]

theorem meanOf_apply (a : FVec Ideal S64x1024x1024 .f32) (b : Fin 64) (i j : Fin 1024) :
    meanOf (F := Ideal) a (ix3 b i j) = Ideal.div (sumAll (F := Ideal) a (ix1 b)) ((1048576 : ℝ) : EReal) := by
  unfold meanOf
  refine (broadcastInDim_apply _ _ _ (ix3 b i j) (ix3 b (0 : Fin 1) (0 : Fin 1))
    (fun c => match c with | ⟨0, _⟩ => rfl | ⟨1, _⟩ => rfl | ⟨2, _⟩ => rfl)).trans ?_
  rw [hostDivf_apply]
  congr 1
  · exact broadcastInDim_apply _ _ _ (ix3 b (0 : Fin 1) (0 : Fin 1)) (ix1 b)
      (fun c => match c with | ⟨0, _⟩ => rfl)
  · rw [broadcastInDim_scalar_apply, countS_apply]

theorem devSq_apply (a : FVec Ideal S64x1024x1024 .f32) (k : S64x1024x1024.Idx) :
    devSq (F := Ideal) a k = (a k - meanOf (F := Ideal) a k) * (a k - meanOf (F := Ideal) a k) := rfl

/-- The variance of one batch row whose entries are reals: the real two-pass unbiased variance over 2^20 entries. -/
theorem varOf_coe (a : FVec Ideal S64x1024x1024 .f32) (m : Fin 1024 → Fin 1024 → ℝ) (b : Fin 64)
    (ha : ∀ i j, a (ix3 b i j) = ((m i j : ℝ) : EReal)) :
    varOf (F := Ideal) a ddofOne (ix1 b)
      = (((∑ i, ∑ j, (m i j - (∑ i', ∑ j', m i' j') / 1048576) * (m i j - (∑ i', ∑ j', m i' j') / 1048576))
          / 1048575 : ℝ) : EReal) := by
  have hmean : ∀ i j, meanOf (F := Ideal) a (ix3 b i j) = (((∑ i', ∑ j', m i' j') / 1048576 : ℝ) : EReal) := by
    intro i j
    rw [meanOf_apply, sumAll_coe a m b ha, div_coe_coe _ _ (by norm_num)]
  have hdev : ∀ i j, devSq (F := Ideal) a (ix3 b i j)
      = (((m i j - (∑ i', ∑ j', m i' j') / 1048576) * (m i j - (∑ i', ∑ j', m i' j') / 1048576) : ℝ) : EReal) := by
    intro i j
    rw [devSq_apply, ha, hmean, ← EReal.coe_sub, ← EReal.coe_mul]
  unfold varOf
  rw [select_apply]
  have hc : (broadcastInDim S64 ![] bcast_S_S64 (cmpf .ogt (normS (F := Ideal) ddofOne) (zeroS (F := Ideal)))) (ix1 b)
      = 1#1 := by
    rw [broadcastInDim_scalar_apply, cmpf_apply, normS_apply, zeroS_apply]
    show Ideal.cmp .ogt ((1048575 : ℝ) : EReal) 0 = 1#1
    have h0 : (0 : EReal) < ((1048575 : ℝ) : EReal) := by exact_mod_cast (by norm_num : (0 : ℝ) < 1048575)
    simp [Ideal.cmp, h0]
  rw [hc, select_one, hostDivf_apply, broadcastInDim_scalar_apply, normS_apply, sumAll_coe _ _ b hdev,
    div_coe_coe _ _ (by norm_num)]

/-- The variance of the masked differences of row b is the closed form. -/
theorem varOf_upperDiff (X : FVec Ideal S64x1024 .f32) (x : Fin 64 → Fin 1024 → ℝ)
    (hX : ∀ (b : Fin 64) (j : Fin 1024), X (ix2 b j) = ((x b j : ℝ) : EReal)) (b : Fin 64) :
    varOf (F := Ideal) (upperDiff (F := Ideal) X) ddofOne (ix1 b) = ((RowSpec.varR (x b) : ℝ) : EReal) := by
  rw [varOf_coe _ (PairSums.msk (x b)) b (fun i j => upperDiff_apply X x hX b i j)]
  congr 1
  have h := PairSums.var_two_pass (n := 1024) (by norm_num) (x b)
  simp only [Nat.cast_ofNat] at h
  rw [show ((1024 : ℝ) * 1024) = 1048576 by norm_num, show ((1024 : ℝ) - 1) = 1023 by norm_num] at h
  unfold RowSpec.varR
  rw [h]

/-- The negated masked differences have the same variance. -/
theorem varOf_neg_upperDiff (X : FVec Ideal S64x1024 .f32) (x : Fin 64 → Fin 1024 → ℝ)
    (hX : ∀ (b : Fin 64) (j : Fin 1024), X (ix2 b j) = ((x b j : ℝ) : EReal)) (b : Fin 64) :
    varOf (F := Ideal) (Host.negf (upperDiff (F := Ideal) X)) ddofOne (ix1 b) = ((RowSpec.varR (x b) : ℝ) : EReal) := by
  have ha : ∀ i j, (Host.negf (upperDiff (F := Ideal) X)) (ix3 b i j) = ((-(PairSums.msk (x b) i j) : ℝ) : EReal) := by
    intro i j
    show -(upperDiff (F := Ideal) X (ix3 b i j)) = _
    rw [upperDiff_apply X x hX, EReal.coe_neg]
  rw [varOf_coe _ (fun i j => -(PairSums.msk (x b) i j)) b ha]
  congr 1
  have h := PairSums.var_two_pass (n := 1024) (by norm_num) (x b)
  have hn := PairSums.var_two_pass_neg (n := 1024) (x b)
  simp only [Nat.cast_ofNat] at h hn
  rw [show ((1024 : ℝ) * 1024) = 1048576 by norm_num] at h hn
  rw [show ((1024 : ℝ) - 1) = 1023 by norm_num] at h
  unfold RowSpec.varR
  rw [hn, h]

/-! ### The scale, the logistic function and the masked soft step -/

theorem stdOf_apply (a : FVec Ideal S64x1024x1024 .f32) (d : IVec S_ 32) (k : S64.Idx) :
    stdOf (F := Ideal) a d k = Ideal.sqrt (varOf (F := Ideal) a d k) := rfl

theorem scaleOf_apply (s : FVec Ideal S64 .f32) (b : Fin 64) (i j : Fin 1024) :
    scaleOf (F := Ideal) s (ix3 b i j) = Ideal.div (Ideal.ofBits .f32 0x40D9999A#32) (s (ix1 b)) := by
  unfold scaleOf
  refine (broadcastInDim_apply _ _ _ (ix3 b i j) (ix3 b (0 : Fin 1) (0 : Fin 1))
    (fun c => match c with | ⟨0, _⟩ => rfl | ⟨1, _⟩ => rfl | ⟨2, _⟩ => rfl)).trans ?_
  refine (broadcastInDim_apply _ _ _ (ix3 b (0 : Fin 1) (0 : Fin 1)) (ix1 b)
    (fun c => match c with | ⟨0, _⟩ => rfl)).trans ?_
  rw [hostDivf_apply, broadcastInDim_scalar_apply]
  rfl

theorem sigmoidOf_apply (z : FVec Ideal S64x1024x1024 .f32) (k : S64x1024x1024.Idx) :
    sigmoidOf (F := Ideal) z k = Ideal.logistic (z k) := by
  unfold sigmoidOf
  rw [hostDivf_apply, addf_apply, broadcastInDim_scalar_apply, oneS_apply]
  rfl

/-- The masked soft step at (b, i, j): the logistic function of the entry times 6.8 over the row's standard deviation
    where i < j, zero elsewhere. -/
theorem softStep_apply (a : FVec Ideal S64x1024x1024 .f32) (b : Fin 64) (i j : Fin 1024) :
    softStep (F := Ideal) a (ix3 b i j)
      = if i < j then Ideal.logistic (a (ix3 b i j)
          * Ideal.div (Ideal.ofBits .f32 0x40D9999A#32) (Ideal.sqrt (varOf (F := Ideal) a ddofOne (ix1 b)))) else 0 := by
  unfold softStep
  rw [maskedElse_apply, upperMask_apply, zeroS_apply, sigmoidOf_apply, mulf_apply, scaleOf_apply, stdOf_apply]
  by_cases h : i < j
  · rw [if_pos h, if_pos h, select_one]
  · rw [if_neg h, if_neg h, select_zero]

/-! ### The two one-axis host sums -/

/-- The host sum over the last axis at (b, q): the sum over the columns of row q. -/
theorem rowSum_apply (v : FVec Ideal S64x1024x1024 .f32) (b : Fin 64) (q : Fin 1024) :
    Host.reduceAdd v (zeroS (F := Ideal)) reducesTo_S64x1024x1024_S64x1024_d2 h_S_ (ix2 b q)
      = ∑ j : Fin 1024, v (ix3 b q j) := by
  rw [hostReduceAdd_apply,
    Ideal.hostReduceAdd_single _ (by decide : S64x1024x1024.Reduces [2] S64x1024), zeroS_apply, zero_add]
  refine Finset.sum_congr rfl fun k _ => congrArg v ?_
  funext c
  match c with
  | ⟨0, _⟩ => exact Fin.ext rfl
  | ⟨1, _⟩ => exact Fin.ext rfl
  | ⟨2, _⟩ => exact Fin.ext rfl

/-- The host sum over the middle axis at (b, q): the sum over the rows of column q. -/
theorem colSum_apply (v : FVec Ideal S64x1024x1024 .f32) (b : Fin 64) (q : Fin 1024) :
    Host.reduceAdd v (zeroS (F := Ideal)) reducesTo_S64x1024x1024_S64x1024_d1 h_S_ (ix2 b q)
      = ∑ i : Fin 1024, v (ix3 b i q) := by
  rw [hostReduceAdd_apply,
    Ideal.hostReduceAdd_single _ (by decide : S64x1024x1024.Reduces [1] S64x1024), zeroS_apply, zero_add]
  refine Finset.sum_congr rfl fun k _ => congrArg v ?_
  funext c
  match c with
  | ⟨0, _⟩ => exact Fin.ext rfl
  | ⟨1, _⟩ => exact Fin.ext rfl
  | ⟨2, _⟩ => exact Fin.ext rfl

/-! ### The result -/

/-- The logistic function at zero is one half. -/
theorem logistic_zero : Ideal.logistic 0 = ((1 / 2 : ℝ) : EReal) := by
  rw [← EReal.coe_zero, Ideal.logistic_coe]
  congr 1
  norm_num

theorem refOut_apply (X : FVec Ideal S64x1024 .f32) (x : Fin 64 → Fin 1024 → ℝ)
    (hX : ∀ (b : Fin 64) (j : Fin 1024), X (ix2 b j) = ((x b j : ℝ) : EReal)) (b : Fin 64) (q : Fin 1024) :
    refOut (F := Ideal) X (ix2 b q) = RowSpec.rowSpec (x b) q := by
  -- the common summand: the logistic function of the scaled difference to position q
  let f : Fin 1024 → EReal := fun i => Ideal.logistic (((x b i - x b q : ℝ) : EReal) * RowSpec.scaleE (x b))
  have hA : ∀ j, softStep (F := Ideal) (upperDiff (F := Ideal) X) (ix3 b q j) = if q < j then f j else 0 := by
    intro j
    rw [softStep_apply, upperDiff_apply X x hX, varOf_upperDiff X x hX]
    by_cases h : q < j
    · rw [if_pos h, if_pos h]
      show Ideal.logistic (((PairSums.msk (x b) q j : ℝ) : EReal) * RowSpec.scaleE (x b)) = _
      unfold PairSums.msk
      rw [if_pos h]
    · rw [if_neg h, if_neg h]
  have hB : ∀ i, softStep (F := Ideal) (Host.negf (upperDiff (F := Ideal) X)) (ix3 b i q) = if i < q then f i else 0 := by
    intro i
    rw [softStep_apply, varOf_neg_upperDiff X x hX]
    by_cases h : i < q
    · rw [if_pos h, if_pos h]
      show Ideal.logistic (-(upperDiff (F := Ideal) X (ix3 b i q)) * RowSpec.scaleE (x b)) = _
      rw [upperDiff_apply X x hX, ← EReal.coe_neg]
      unfold PairSums.msk
      rw [if_pos h, neg_sub]
    · rw [if_neg h, if_neg h]
  have hq : f q = ((1 / 2 : ℝ) : EReal) := by
    show Ideal.logistic (((x b q - x b q : ℝ) : EReal) * RowSpec.scaleE (x b)) = _
    rw [sub_self, EReal.coe_zero, zero_mul, logistic_zero]
  unfold refOut
  rw [hostDivf_apply, addf_apply, addf_apply, rowSum_apply, colSum_apply, broadcastInDim_scalar_apply,
    broadcastInDim_scalar_apply, oneS_apply]
  show Ideal.div _ (Ideal.ofBits .f32 0x44800000#32) = _
  rw [ofBits_1024]
  unfold RowSpec.rowSpec
  congr 1
  rw [Finset.sum_congr rfl (fun j _ => hA j), Finset.sum_congr rfl (fun i _ => hB i)]
  show _ = (∑ i, f i) + ((1 / 2 : ℝ) : EReal)
  rw [← PairSums.sum_split_at f q, hq, add_assoc _ ((1 / 2 : ℝ) : EReal) ((1 / 2 : ℝ) : EReal), ← EReal.coe_add]
  congr 2
  norm_num

end Cert.ReferenceIdeal.RefRead

end
-- ==== Proof.FiniteRows.lean ====
import proofs.«141201_j10222022164545_1_alg».proof.Pre_finite_inputs
import proofs.«141201_j10222022164545_1_alg».proof.Proof.Gen.Pre_finite_inputs
import Idealize.ShloMosaic.PureOps.Ideal.Laws
import Idealize.ShloMosaic.Lib.ReduceAll
import Idealize.ShloMosaic.Lib.ValueIdx

/-!
From the precondition to real inputs.

The precondition evaluates `all (|x| < +∞)` over the 64 × 1024 input and states that the result is true.
On the extended reals `|a|` is `max a (-a)`, which is `⊤` at both infinities, so `|a| < ⊤` holds exactly
when `a` is (the coercion of) a real number. Hence every entry of the input is a real, and the whole input
is the coercion of a real 64 × 1024 matrix.
-/

noncomputable section

namespace Cert.FiniteRows

open Idealize.ShloMosaic Idealize.ShloMosaic.ValueIdx

/-- The result shape of a reduction over all axes has exactly one index. -/
instance : Subsingleton Cert.Pre_finite_inputs.S_.Idx := ⟨fun a b => funext fun d => d.elim0⟩

/-- The single-precision pattern `0x7F800000` denotes `+∞`. -/
theorem ofBits_inf : Ideal.ofBits .f32 0x7F800000#32 = (⊤ : EReal) := by
  simp [Ideal.ofBits, Ideal.ieee]

/-- An extended real whose absolute value `max a (-a)` is below `⊤` is a real. -/
theorem real_of_abs_lt_top (a : EReal) (h : max a (-a) < ⊤) : ∃ r : ℝ, a = ((r : ℝ) : EReal) := by
  induction a using EReal.rec with
  | bot => simp at h
  | coe r => exact ⟨r, rfl⟩
  | top => simp at h

/-- A one-bit word built from a decidable proposition is 1 only if the proposition holds. -/
theorem of_ofBool_decide_eq_one {p : Prop} [Decidable p] (h : BitVec.ofBool (decide p) = 1#1) : p := by
  by_cases hp : p
  · exact hp
  · simp [hp] at h

/-- every entry of an array satisfying the precondition is a real -/
theorem entry_real [Cert.Pre_finite_inputs.Facts] (X : FVec Ideal Cert.Pre_finite_inputs.S64x1024 .f32)
    (h : Cert.Pre_finite_inputs.fn (F := Ideal) X = (fun _ => 1#1)) (i : Cert.Pre_finite_inputs.S64x1024.Idx) :
    ∃ r : ℝ, X i = ((r : ℝ) : EReal) := by
  have h0 := congrFun h ValueIdx.ix0
  dsimp only [Cert.Pre_finite_inputs.fn] at h0
  have hi := Host.reduce_andi_all _ _ _ _ _ h0 i
  simp only [cmpf, Host.absf, broadcastInDim, constant, Ideal.hostAbsf_def, Ideal.cmpf_def, Ideal.absf_def,
    Ideal.cmp, Ideal.ofBits_def, ofBits_inf] at hi
  exact real_of_abs_lt_top _ (of_ofBool_decide_eq_one hi)

/-- so the array is the coercion of a real matrix -/
theorem exists_reals [Cert.Pre_finite_inputs.Facts] (X : FVec Ideal Cert.Pre_finite_inputs.S64x1024 .f32)
    (h : Cert.Pre_finite_inputs.fn (F := Ideal) X = (fun _ => 1#1)) :
    ∃ x : Fin 64 → Fin 1024 → ℝ, ∀ (b : Fin 64) (j : Fin 1024), X (ix2 b j) = ((x b j : ℝ) : EReal) :=
  ⟨fun b j => Classical.choose (entry_real X h (ix2 b j)),
    fun b j => Classical.choose_spec (entry_real X h (ix2 b j))⟩

end Cert.FiniteRows

end
-- ==== Proof.Bridge.lean ====
import proofs.«141201_j10222022164545_1_alg».proof.Proof.KernelArray
import proofs.«141201_j10222022164545_1_alg».proof.Proof.KernelRowValue
import proofs.«141201_j10222022164545_1_alg».proof.Proof.RefRead
import proofs.«141201_j10222022164545_1_alg».proof.Proof.FiniteRows
import proofs.«141201_j10222022164545_1_alg».proof.Proof.Gen.Pre_finite_inputs
import proofs.«141201_j10222022164545_1_alg».proof.Proof.Gen.ReferenceIdeal

/-!
The two programs compute one function of a finite input. On an input whose entries are real numbers, entry
`(b, q)` of the kernel's output array and of the reference's result are both `RowSpec.rowSpec` of row `b` at `q`:
the kernel's closed-form variance is the reference's two-pass variance of the masked difference matrix, and the
kernel's full column sum of logistic values plus one half is the reference's two masked sums plus one, the
diagonal term being `σ 0 = 1/2`.
-/

noncomputable section

namespace Cert.Bridge

open Idealize.ShloMosaic Idealize.ShloMosaic.ValueIdx Cert.KernelIdeal.Rows

/-- Entry `(b, q)` of the kernel's output array is entry `q` of the result of row `b`. -/
theorem arrayOut_ix2 {F : FTy → Type} [FloatOps F] (X : FVec F Cert.KernelIdeal.S64x1024 .f32) (b : Fin 64) (q : Fin 1024) :
    arrayOut (F := F) X (ix2 b q) = rowOut (F := F) (rowAt X b) (ix2 (0 : Fin 1) q) := rfl

/-- The kernel's output array at `(b, q)` on a real input. -/
theorem arrayOut_apply (X : FVec Ideal Cert.KernelIdeal.S64x1024 .f32) (x : Fin 64 → Fin 1024 → ℝ)
    (hX : ∀ (b : Fin 64) (j : Fin 1024), X (ix2 b j) = ((x b j : ℝ) : EReal)) (b : Fin 64) (q : Fin 1024) :
    arrayOut (F := Ideal) X (ix2 b q) = RowSpec.rowSpec (x b) q := by
  rw [arrayOut_ix2 (F := Ideal) X b q]
  have hrow : ∀ j : Fin 1024, rowAt (F := Ideal) X b (ix2 (0 : Fin 1) j) = ((x b j : ℝ) : EReal) := fun j => hX b j
  exact rowOut_apply (rowAt (F := Ideal) X b) (x b) hrow q

/-- On a finite input the reference's result array is the kernel's. -/
theorem values_agree (X : FVec Ideal Cert.Pre_finite_inputs.S64x1024 .f32)
    (h : Cert.Pre_finite_inputs.fn (F := Ideal) X = (fun _ => 1#1)) :
    Cert.ReferenceIdeal.RefTerm.refOut (F := Ideal) X = arrayOut (F := Ideal) X := by
  obtain ⟨x, hx⟩ := Cert.FiniteRows.exists_reals X h
  funext i
  rw [eq_ix2 i]
  exact (Cert.ReferenceIdeal.RefRead.refOut_apply X x hx (i 0) (i 1)).trans (arrayOut_apply X x hx (i 0) (i 1)).symm

end Cert.Bridge

end
-- ==== Proof.lean ====
/-
  The kernel ranks each of the 64 rows softly: for a row `x` of 1024 numbers it forms the scale `c = 6.8 / std`,
  where `std` is the unbiased standard deviation of the 1024 × 1024 strictly upper triangular matrix of pairwise
  differences of `x` (computed in closed form from three sums over the row), and returns at each position `q`
  the value `(∑ i, σ((x i - x q) c) + 1/2) / 1024` with `σ` the logistic function. The reference builds the
  matrix of differences and its negation, takes the two-pass standard deviation of each, and adds the masked
  row sums of the one to the masked column sums of the other, plus one, over 1024. Over the extended reals, on
  finite inputs, the two are the same function (Proof/Bridge.lean): the two variances agree by the algebraic
  identities of Proof/PairSums.lean, and the kernel's unmasked sum exceeds the reference's two masked sums by the
  diagonal term `σ 0 = 1/2`. The frames are the generated ones (the reference's: its run with the result
  dropped); the idealization rewrote nothing.
-/
import proofs.«141201_j10222022164545_1_alg».proof.Defs
import proofs.«141201_j10222022164545_1_alg».proof.Proof.Gen.Kernel
import proofs.«141201_j10222022164545_1_alg».proof.Proof.Gen.Kernel.Frame
import proofs.«141201_j10222022164545_1_alg».proof.Proof.Gen.KernelIdeal
import proofs.«141201_j10222022164545_1_alg».proof.Proof.Gen.KernelIdeal.Frame
import proofs.«141201_j10222022164545_1_alg».proof.Proof.Gen.KernelIdeal.Value
import proofs.«141201_j10222022164545_1_alg».proof.Proof.Gen.ReferenceIdeal
import proofs.«141201_j10222022164545_1_alg».proof.Proof.Gen.Pre_finite_inputs
import proofs.«141201_j10222022164545_1_alg».proof.Proof.RefRun
import proofs.«141201_j10222022164545_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs end with the same result array: the kernel's at `arrayOut` of its input, the reference's at
    `refOut` of the same input, and on a finite input these are one function. -/
theorem algebraic : Cert.algebraic_KernelIdeal_ReferenceIdeal := by
  intro m ρ m' ρ' hpre hagree
  refine ⟨fun c => Cert.KernelIdeal.Rows.arrayOut (F := Ideal) (m ((c.tc : Thread Cert.KernelIdeal.nD Cert.KernelIdeal.τ).loc Cert.KernelIdeal.main_arg0)),
    Cert.KernelIdeal.Rows.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.Bridge.values_agree _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
